-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x64 : Shape := ⟨2, ![256, 64]⟩
abbrev S64x256 : Shape := ⟨2, ![64, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x64 .f32) (main_arg3 : FVec F S64x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x64 : Shape := ⟨2, ![256, 64]⟩
abbrev S64x256 : Shape := ⟨2, ![64, 256]⟩
abbrev S10000x64 : Shape := ⟨2, ![10000, 64]⟩
abbrev S400x10000 : Shape := ⟨2, ![400, 10000]⟩
abbrev S400x64 : Shape := ⟨2, ![400, 64]⟩
abbrev S400x256 : Shape := ⟨2, ![400, 256]⟩
abbrev S400 : Shape := ⟨1, ![400]⟩
abbrev S400x1 : Shape := ⟨2, ![400, 1]⟩
abbrev S1000x64 : Shape := ⟨2, ![1000, 64]⟩
abbrev S1000x256 : Shape := ⟨2, ![1000, 256]⟩
abbrev S1000x10000 : Shape := ⟨2, ![1000, 10000]⟩
abbrev S1000 : Shape := ⟨1, ![1000]⟩
abbrev S1000x1 : Shape := ⟨2, ![1000, 1]⟩

abbrev nBuf : Space → Nat
  | .hbm => 7
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x64, .f32⟩
  | .hbm, ⟨3, _⟩ => ⟨S64x256, .f32⟩
  | .hbm, ⟨4, _⟩ => ⟨S10000x64, .bf16⟩
  | .hbm, ⟨5, _⟩ => ⟨S10000x256, .bf16⟩
  | .hbm, ⟨6, _⟩ => ⟨S10000x256, .f32⟩
  | .local _ .vmem, ⟨0, _⟩ => ⟨S10000x256, .f32⟩
  | .local _ .vmem, ⟨1, _⟩ => ⟨S256x64, .f32⟩
  | .local _ .vmem, ⟨2, _⟩ => ⟨S400x10000, .f32⟩
  | .local _ .vmem, ⟨3, _⟩ => ⟨S400x10000, .f32⟩
  | .local _ .vmem, ⟨4, _⟩ => ⟨S64x256, .f32⟩
  | .local _ .vmem, ⟨5, _⟩ => ⟨S400x64, .bf16⟩
  | .local _ .vmem, ⟨6, _⟩ => ⟨S400x64, .bf16⟩
  | .local _ .vmem, ⟨7, _⟩ => ⟨S400x256, .bf16⟩
  | .local _ .vmem, ⟨8, _⟩ => ⟨S400x256, .bf16⟩
  | .local _ .vmem, ⟨9, _⟩ => ⟨S10000x64, .f32⟩
  | .local _ .vmem, ⟨10, _⟩ => ⟨S1000x64, .bf16⟩
  | .local _ .vmem, ⟨11, _⟩ => ⟨S1000x64, .bf16⟩
  | .local _ .vmem, ⟨12, _⟩ => ⟨S10000x64, .bf16⟩
  | .local _ .vmem, ⟨13, _⟩ => ⟨S10000x256, .bf16⟩
  | .local _ .vmem, ⟨14, _⟩ => ⟨S1000x256, .f32⟩
  | .local _ .vmem, ⟨15, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  reduces_S400x64_S400 : S400x64.Reduces [1] S400
  shapeCasts_S400_S400x1 : S400.ShapeCasts S400x1
  broadcasts_S400x1_S400x64 : S400x1.Broadcasts S400x64
  bitsLt_bf16_f32 : FTy.bits .bf16 < FTy.bits .f32
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S64x256_S64x256_0_0 : ∀ a, (![0, 0] : Fin 2 → Nat) a + S64x256.size a ≤ S64x256.size a
  h_S64x256 : 0 < S64x256.numel
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  reduces_S1000x10000_S1000 : S1000x10000.Reduces [1] S1000
  shapeCasts_S1000_S1000x1 : S1000.ShapeCasts S1000x1
  shapeCasts_S10000x256_S10000x256 : S10000x256.ShapeCasts S10000x256
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  dot_S10000x256_S256x64_S10000x64_1_0_0_1_n_n_wf : DotDims.WF S10000x256 S256x64 S10000x64 [1] [0] [0] [1] [] []
  dot_S400x10000_S10000x64_S400x64_1_0_0_1_n_n_wf : DotDims.WF S400x10000 S10000x64 S400x64 [1] [0] [0] [1] [] []
  dot_S400x64_S64x256_S400x256_1_0_0_1_n_n_wf : DotDims.WF S400x64 S64x256 S400x256 [1] [0] [0] [1] [] []
  dot_S1000x64_S10000x64_S1000x10000_1_1_0_0_n_n_wf : DotDims.WF S1000x64 S10000x64 S1000x10000 [1] [1] [0] [0] [] []
  dot_S1000x10000_S10000x256_S1000x256_1_0_0_1_n_n_wf : DotDims.WF S1000x10000 S10000x256 S1000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .bf16 = 32 ∨ (Rect.block (s := S10000x64) S400x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x256.size a ≤ S10000x256.size a
  hwx0_5 : ∀ i : grid0.Coords, EltTy.bits .bf16 = 32 ∨ (Rect.block (s := S10000x256) S400x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S10000x64.size a
  hwx1_0 : ∀ i : grid1.Coords, EltTy.bits .bf16 = 32 ∨ (Rect.block (s := S10000x64) S1000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S10000x256.size a
  hwx1_2 : ∀ i : grid1.Coords, EltTy.bits .bf16 = 32 ∨ (Rect.block (s := S10000x256) S10000x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S10000x256.size a
  hwx1_3 : ∀ i : grid1.Coords, EltTy.bits .f32 = 32 ∨ (Rect.block (s := S10000x256) S1000x256.size (cc1_transform_3 i) (hinb1_3 i)).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S1000x64_S10000x64_S1000x10000_1_1_0_0_n_n : DotDims S1000x64 S10000x64 S1000x10000 where
  lhsContracting := [1]
  rhsContracting := [1]
  lhsNonContracting := [0]
  rhsNonContracting := [0]
  lhsBatch := []
  rhsBatch := []
  wf := dot_S1000x64_S10000x64_S1000x10000_1_1_0_0_n_n_wf
def dot_S1000x10000_S10000x256_S1000x256_1_0_0_1_n_n : DotDims S1000x10000 S10000x256 S1000x256 where
  lhsContracting := [1]
  rhsContracting := [0]
  lhsNonContracting := [0]
  rhsNonContracting := [1]
  lhsBatch := []
  rhsBatch := []
  wf := dot_S1000x10000_S10000x256_S1000x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S400x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S400x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S10000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x64 : Shape := ⟨2, ![256, 64]⟩
abbrev S64x256 : Shape := ⟨2, ![64, 256]⟩
abbrev S10000x64 : Shape := ⟨2, ![10000, 64]⟩
abbrev S_ : Shape := ⟨0, ![]⟩
abbrev S10000 : Shape := ⟨1, ![10000]⟩
abbrev S10000x1 : Shape := ⟨2, ![10000, 1]⟩
abbrev S64x10000 : Shape := ⟨2, ![64, 10000]⟩

abbrev nBuf : Space → Nat
  | .hbm => 38
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x64, .f32⟩
  | .hbm, ⟨3, _⟩ => ⟨S64x256, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x64, .f32⟩
  | .hbm, ⟨10, _⟩ => ⟨S_, .f32⟩
  | .hbm, ⟨11, _⟩ => ⟨S10000, .f32⟩
  | .hbm, ⟨12, _⟩ => ⟨S10000x1, .f32⟩
  | .hbm, ⟨13, _⟩ => ⟨S10000x1, .f32⟩
  | .hbm, ⟨14, _⟩ => ⟨S_, .f32⟩
  | .hbm, ⟨15, _⟩ => ⟨S10000x1, .f32⟩
  | .hbm, ⟨16, _⟩ => ⟨S10000x1, .f32⟩
  | .hbm, ⟨17, _⟩ => ⟨S10000x64, .f32⟩
  | .hbm, ⟨18, _⟩ => ⟨S10000x64, .f32⟩
  | .hbm, ⟨19, _⟩ => ⟨S64x10000, .f32⟩
  | .hbm, ⟨20, _⟩ => ⟨S10000x10000, .f32⟩
  | .hbm, ⟨21, _⟩ => ⟨S_, .f32⟩
  | .hbm, ⟨22, _⟩ => ⟨S10000x10000, .f32⟩
  | .hbm, ⟨23, _⟩ => ⟨S10000x10000, .i1⟩
  | .hbm, ⟨24, _⟩ => ⟨S_, .f32⟩
  | .hbm, ⟨25, _⟩ => ⟨S10000x10000, .f32⟩
  | .hbm, ⟨26, _⟩ => ⟨S10000x10000, .f32⟩
  | .hbm, ⟨27, _⟩ => ⟨S10000x10000, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S_, .f32⟩
  | .hbm, ⟨32, _⟩ => ⟨S10000x1, .f32⟩
  | .hbm, ⟨33, _⟩ => ⟨S10000x1, .f32⟩
  | .hbm, ⟨34, _⟩ => ⟨S10000x10000, .f32⟩
  | .hbm, ⟨35, _⟩ => ⟨S10000x10000, .f32⟩
  | .hbm, ⟨36, _⟩ => ⟨S10000x256, .f32⟩
  | .hbm, ⟨37, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x64_0_1 : S10000x1.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  reducesTo_S10000x10000_S10000_d1 : S10000x10000.ReducesTo [1] S10000
  bcast_S10000x1_S10000x10000_0_1 : S10000x1.BroadcastsInDim S10000x10000 (![0, 1] : Fin 2 → Fin S10000x10000.rank)
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []
  dot_S10000x64_S64x10000_S10000x10000_1_0_0_1_n_n_wf : DotDims.WF S10000x64 S64x10000 S10000x10000 [1] [0] [0] [1] [] []
  dot_S10000x64_S64x256_S10000x256_1_0_0_1_n_n_wf : DotDims.WF S10000x64 S64x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.R0Runs.lean ====
/-
  Region 0 (the h stage) point by point: the body's two control cases as runs on whole staging buffers.
  At the first grid point the body first stores h1 = feat · W1 into the scratch it keeps between points, then
  computes the point's 400 rows from the adj block and that scratch; at every later point it only reads the
  scratch. Each run states what the body leaves in the two output buffers (and, in the first case, in the
  scratch) as the pieces its stores wrote.
-/
import proofs.«112259_g23313082482977_cont_8to1_1054_47_alg».proof.Proof.Gen.KernelIdeal.Launch
import proofs.«112259_g23313082482977_cont_8to1_1054_47_alg».proof.Proof.Gen.KernelIdeal.Skeleton
import proofs.«112259_g23313082482977_cont_8to1_1054_47_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the grid coordinate -/

/-- The body's one conditional: taken exactly when the grid coordinate is 0. -/
abbrev cond0_0 (i : grid0.Coords) : Prop := (Scalar.cmpi .ne (Scalar.extui (Scalar.cmpi .eq (BitVec.ofNat 32 (i 0).val) 0#32)) 0#32) = 1#1
/-- It holds at the first of the 25 points only. -/
theorem hcond0_0 : ∀ t : Fin cfg0.N, cond0_0 (grid0.coords t) ↔ t.val = 0 :=
  (by decide +kernel : ∀ t : Fin grid0.N, cond0_0 (grid0.coords t) ↔ t.val = 0)

/-! ## The case of the first point: the scratch is written, then read -/

set_option maxHeartbeats 4000000 in
/-- The first point: inputs at their contents, outputs and scratch at anything; the body leaves the inputs as
    they were and each output and the scratch with the pieces its stores wrote. -/
noncomputable def kernelRun0_A (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i)
    (x0 : Vec F S10000x256 .f32) (x1 : Vec F S256x64 .f32) (x2 : Vec F S400x10000 .f32) (x3 : Vec F S64x256 .f32) :
    Σ' (L4 : List (View.Piece (Elt F) S400x64 .bf16)) (L5 : List (View.Piece (Elt F) S400x256 .bf16)), { LS0 : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__h_body i arg1 harg1 arg2 harg2 arg3 harg3 arg4 harg4 arg5 harg5 arg6 harg6 arg7 harg7) K } := by
  refine ⟨?_, ?_, ?_, fun E K => ?run⟩
  case run =>
    simp only [cc0__h_body_eq_skeleton]; unfold cc0__h_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

/-! ## The case of every later point: the scratch is only read -/

set_option maxHeartbeats 4000000 in
/-- A later point: inputs at their contents, the scratch at what the first point left, outputs at anything;
    the body leaves inputs and scratch as they were and each output with the pieces its stores wrote. -/
noncomputable def kernelRun0_B (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i)
    (x0 : Vec F S10000x256 .f32) (x1 : Vec F S256x64 .f32) (x2 : Vec F S400x10000 .f32) (x3 : Vec F S64x256 .f32) (xs0 : Vec F S10000x64 .f32) :
    Σ' (L4 : List (View.Piece (Elt F) S400x64 .bf16)), { L5 : List (View.Piece (Elt F) S400x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0__h_body i arg1 harg1 arg2 harg2 arg3 harg3 arg4 harg4 arg5 harg5 arg6 harg6 arg7 harg7) K } := by
  refine ⟨?_, ?_, fun E K => ?run⟩
  case run =>
    simp only [cc0__h_body_eq_skeleton]; unfold cc0__h_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; isplitr; · ipureintro; exact harg7.read_unread _
    iexact HS0

end Cert.KernelIdeal.Hand

end
-- ==== Proof.R0Data.lean ====
/-
  Region 0 (the h stage): what the pipeline's buffers hold from point to point. Windows 0, 1, 3 (feat, W1, W2)
  are whole arrays staged once; window 2 is the point's 400-row block of adj; windows 4 and 5 receive the point's
  400 rows of hn and of y. The scratch holds h1 = feat · W1 from the first point on, the same contents at every
  later point, so nothing is accumulated: each point's outputs are a function of that point's blocks and of the
  first point's scratch.
-/
import proofs.«112259_g23313082482977_cont_8to1_1054_47_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the memrefs the body is called with -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
def t0_0 : Fin cfg0.N := ⟨0, (show 0 < grid0.N by rw [N_0]; decide)⟩

abbrev ms0_0 (t : Fin cfg0.N) : Memref sig .tc .vmem S10000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S400x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x256 .bf16 := win0_5.stage (cfg0.slots t 5)
abbrev hs0_5 (t : Fin cfg0.N) : (ms0_5 t).IsWhole := hstage0_5 ((cfg0.slots t 5).cast nbuf0_5)
/-- The scratch operand: a whole buffer of the kernel's own. -/
abbrev scM0 : Memref sig .tc .vmem S10000x64 .f32 := Memref.whole cc0_scratch0
abbrev VS0 : View sig .tc .vmem S10000x64 .f32 := scM0.view
/-- One staging buffer per output window, through which its contents are stated. -/
abbrev VO0_4 : View sig .tc .vmem S400x64 .bf16 := (Memref.whole cc0_stg4_0 : Memref sig .tc .vmem S400x64 .bf16).view
abbrev VO0_5 : View sig .tc .vmem S400x256 .bf16 := (Memref.whole cc0_stg5_0 : Memref sig .tc .vmem S400x256 .bf16).view

/-! ## What each case leaves: its pieces cover the buffer, and read back as its contents -/

theorem cover0_A_4 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) (y : S400x64.Idx) :
    ∃ pc ∈ (kernelRun0_A c i arg1 harg1 arg2 harg2 arg3 harg3 arg4 harg4 arg5 harg5 arg6 harg6 arg7 harg7 hc0 x0 x1 x2 x3).1, y ∈ pc.1.set :=
  View.cover_of_tiledL (kernelRun0_A c i arg1 harg1 arg2 harg2 arg3 harg3 arg4 harg4 arg5 harg5 arg6 harg6 arg7 harg7 hc0 x0 x1 x2 x3).1 S400x64.size (by sl_kernel_rfl) y
theorem cover0_A_5 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) (y : S400x256.Idx) :
    ∃ pc ∈ (kernelRun0_A c i arg1 harg1 arg2 harg2 arg3 harg3 arg4 harg4 arg5 harg5 arg6 harg6 arg7 harg7 hc0 x0 x1 x2 x3).2.1, y ∈ pc.1.set :=
  View.cover_of_tiledL (kernelRun0_A c i arg1 harg1 arg2 harg2 arg3 harg3 arg4 harg4 arg5 harg5 arg6 harg6 arg7 harg7 hc0 x0 x1 x2 x3).2.1 S400x256.size (by sl_kernel_rfl) y
theorem scover0_A (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) (y : S10000x64.Idx) :
    ∃ pc ∈ (kernelRun0_A c i arg1 harg1 arg2 harg2 arg3 harg3 arg4 harg4 arg5 harg5 arg6 harg6 arg7 harg7 hc0 x0 x1 x2 x3).2.2.1, y ∈ pc.1.set :=
  View.cover_of_tiledL (kernelRun0_A c i arg1 harg1 arg2 harg2 arg3 harg3 arg4 harg4 arg5 harg5 arg6 harg6 arg7 harg7 hc0 x0 x1 x2 x3).2.2.1 S10000x64.size (by sl_kernel_rfl) y
theorem cover0_B_4 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) (y : S400x64.Idx) :
    ∃ pc ∈ (kernelRun0_B c i arg1 harg1 arg2 harg2 arg3 harg3 arg4 harg4 arg5 harg5 arg6 harg6 arg7 harg7 hc0 x0 x1 x2 x3 xs0).1, y ∈ pc.1.set :=
  View.cover_of_tiledL (kernelRun0_B c i arg1 harg1 arg2 harg2 arg3 harg3 arg4 harg4 arg5 harg5 arg6 harg6 arg7 harg7 hc0 x0 x1 x2 x3 xs0).1 S400x64.size (by sl_kernel_rfl) y
theorem cover0_B_5 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) (y : S400x256.Idx) :
    ∃ pc ∈ (kernelRun0_B c i arg1 harg1 arg2 harg2 arg3 harg3 arg4 harg4 arg5 harg5 arg6 harg6 arg7 harg7 hc0 x0 x1 x2 x3 xs0).2.1, y ∈ pc.1.set :=
  View.cover_of_tiledL (kernelRun0_B c i arg1 harg1 arg2 harg2 arg3 harg3 arg4 harg4 arg5 harg5 arg6 harg6 arg7 harg7 hc0 x0 x1 x2 x3 xs0).2.1 S400x256.size (by sl_kernel_rfl) y

/-- What the first point leaves in the hn window's buffer, -/
def out0_A_4 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) : Vec F S400x64 .bf16 :=
  VO0_4.read (Elt F) (VO0_4.writes (Elt F) VO0_4.junk (kernelRun0_A c i arg1 harg1 arg2 harg2 arg3 harg3 arg4 harg4 arg5 harg5 arg6 harg6 arg7 harg7 hc0 x0 x1 x2 x3).1)
/-- in the y window's buffer, -/
def out0_A_5 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) : Vec F S400x256 .bf16 :=
  VO0_5.read (Elt F) (VO0_5.writes (Elt F) VO0_5.junk (kernelRun0_A c i arg1 harg1 arg2 harg2 arg3 harg3 arg4 harg4 arg5 harg5 arg6 harg6 arg7 harg7 hc0 x0 x1 x2 x3).2.1)
/-- and in the scratch. -/
def sout0_A (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) : Vec F S10000x64 .f32 :=
  VS0.read (Elt F) (VS0.writes (Elt F) VS0.junk (kernelRun0_A c i arg1 harg1 arg2 harg2 arg3 harg3 arg4 harg4 arg5 harg5 arg6 harg6 arg7 harg7 hc0 x0 x1 x2 x3).2.2.1)
/-- What a later point leaves in the hn window's buffer -/
def out0_B_4 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) : Vec F S400x64 .bf16 :=
  VO0_4.read (Elt F) (VO0_4.writes (Elt F) VO0_4.junk (kernelRun0_B c i arg1 harg1 arg2 harg2 arg3 harg3 arg4 harg4 arg5 harg5 arg6 harg6 arg7 harg7 hc0 x0 x1 x2 x3 xs0).1)
/-- and in the y window's buffer. -/
def out0_B_5 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) : Vec F S400x256 .bf16 :=
  VO0_5.read (Elt F) (VO0_5.writes (Elt F) VO0_5.junk (kernelRun0_B c i arg1 harg1 arg2 harg2 arg3 harg3 arg4 harg4 arg5 harg5 arg6 harg6 arg7 harg7 hc0 x0 x1 x2 x3 xs0).2.1)

/-! ## The scratch after the first point, the outputs after every point -/

/-- The scratch from the first point on: what that point's store left, from the first point's blocks. -/
def h1c (c : Dev nD) : Vec F S10000x64 .f32 :=
  sout0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) scM0 (Memref.isWhole_whole _) ((hcond0_0 t0_0).mpr rfl) (iblk0 V c 0 t0_0) (iblk0 V c 1 t0_0) (iblk0 V c 2 t0_0) (iblk0 V c 3 t0_0)

/-- The two output buffers after the body at point `t`: the first point's case, or a later point's over the scratch. -/
def outs0 (c : Dev nD) (t : Fin cfg0.N) : Vec F S400x64 .bf16 × Vec F S400x256 .bf16 :=
  if h : t.val = 0 then
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t),
     out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t))
  else
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c),
     out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c))

theorem outs0_first (c : Dev nD) (t : Fin cfg0.N) (h : t.val = 0) :
    outs0 V c t = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t),
     out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t)) := dif_pos h
theorem outs0_later (c : Dev nD) (t : Fin cfg0.N) (h : ¬t.val = 0) :
    outs0 V c t = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c),
     out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c)) := dif_neg h

/-! ## The invariant between points -/

/-- The six scoped buffers of the other region, each whole at some contents: untouched here. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region: the scratch at anything, the other scoped buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The invariant before position `n`: before the first point what the launch hands over; afterwards the scratch
    at h1, the rest as before. -/
def PhiS (c : Dev nD) : ℕ → sProp 𝕄
  | 0 => Pipeline.ΦA spec0 c
  | _ + 1 => iprop(iprop(owns (c : Thread nD τ) scM0 fullShare (h1c V c) ∗ rest0 c) ∗ (∃ r, prngReg c r))

theorem PhiS_zero (c : Dev nD) : PhiS V c 0 = Pipeline.ΦA spec0 c := rfl
theorem PhiS_succ (c : Dev nD) (n : ℕ) :
    PhiS V c (n + 1) = iprop(iprop(owns (c : Thread nD τ) scM0 fullShare (h1c V c) ∗ rest0 c) ∗ (∃ r, prngReg c r)) := rfl
theorem PhiS_pos (c : Dev nD) (n : ℕ) (hz : n ≠ 0) :
    PhiS V c n = iprop(iprop(owns (c : Thread nD τ) scM0 fullShare (h1c V c) ∗ rest0 c) ∗ (∃ r, prngReg c r)) := by
  cases n with
  | zero => exact absurd rfl hz
  | succ n => rfl

/-! ## The pipeline's proof data -/

/-- The proof data of region 0 on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outs0 V c t).1
    | ⟨5, _⟩ => (outs0 V c t).2
  Φ t := PhiS V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outs0 V c t).1 := by dsimp only [dat0]
theorem after0_5 (c : Dev nD) (t : Fin cfg0.N) : (dat0 V c).after 5 t = (outs0 V c t).2 := by dsimp only [dat0]

end Cert.KernelIdeal.Hand

end
-- ==== Proof.R0Body.lean ====
/-
  Region 0's body obligation: at every grid point, from the invariant and the windows' current buffers the body
  runs to the invariant of the next point and the buffers at the proof data's contents. The first point takes
  the scratch at anything and leaves it at h1; every later point takes it at h1 and leaves it so.
-/
import proofs.«112259_g23313082482977_cont_8to1_1054_47_alg».proof.Proof.R0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's current staging buffer holds its block, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0 V c 0]; try rfl) t d).trans
    (by unfold Dat.fetched Dat.blockOf iblk0; rw [A_eq0 V c 0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0 V c 1]; try rfl) t d).trans
    (by unfold Dat.fetched Dat.blockOf iblk0; rw [A_eq0 V c 1]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0 V c 2]; try rfl) t d).trans
    (by unfold Dat.fetched Dat.blockOf iblk0; rw [A_eq0 V c 2]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0 V c 3]; try rfl) t d).trans
    (by unfold Dat.fetched Dat.blockOf iblk0; rw [A_eq0 V c 3]; try rfl)

theorem Phi_castSucc0 (c : Dev nD) (t : Fin cfg0.N) : (dat0 V c).Φ t.castSucc = PhiS V c t.val := by
  dsimp only [dat0]; simp only [Fin.coe_castSucc]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5]
  rw [show (dat0 V c).Φ t.succ = PhiS V c (t.val + 1) from rfl, PhiS_succ, Phi_castSucc0]
  by_cases hz : t.val = 0
  · rw [outs0_first V c t hz]
    unfold out0_A_4 out0_A_5; (try dsimp only)
    have ht : t = t0_0 := Fin.ext hz
    subst ht
    rw [show PhiS V c (t0_0 : Fin cfg0.N).val = Pipeline.ΦA spec0 c from rfl, PhiA0_eq]
    unfold h1c sout0_A
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t0_0) _ _ _ _ _ _ _ _ _ _ _ _ _ _ ((hcond0_0 t0_0).mpr rfl) (iblk0 V c 0 t0_0) (iblk0 V c 1 t0_0) (iblk0 V c 2 t0_0) (iblk0 V c 3 t0_0)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _ _)
  · rw [outs0_later V c t hz]
    unfold out0_B_4 out0_B_5; (try dsimp only)
    rw [PhiS_pos V c _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun hc => hz ((hcond0_0 t).mp hc)) (iblk0 V c 0 t) (iblk0 V c 1 t) (iblk0 V c 2 t) (iblk0 V c 3 t) (h1c V c)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 from rfl, PhiS_zero]
  try exact Idealize.SL.BI.Entails.refl _

/-- After the last point the invariant gives it back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS0, Hr⟩, Hg⟩
  isplitl [HS0 Hr]
  · isplitl [HS0]
    · iexists _; iexact HS0
    iexact Hr
  iexact Hg

end Cert.KernelIdeal.Hand

end
-- ==== Proof.R1Run.lean ====
/-
  Region 1 (the aggregation stage) at one grid point: the body loads a 1000-row block of hn, the whole of hn and
  the whole of y, and stores one 1000 × 256 block of the result; nothing is kept between points.
-/
import proofs.«112259_g23313082482977_cont_8to1_1054_47_alg».proof.Proof.Gen.KernelIdeal.Launch
import proofs.«112259_g23313082482977_cont_8to1_1054_47_alg».proof.Proof.Gen.KernelIdeal.Skeleton
import proofs.«112259_g23313082482977_cont_8to1_1054_47_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each the whole of its buffer -/

abbrev r1_0 : Rect S1000x64 := Rect.unit (s := S1000x64) ![0, 0] S1000x64.size inb_S1000x64_S1000x64_0_0
abbrev r1_1 : Rect S10000x64 := Rect.unit (s := S10000x64) ![0, 0] S10000x64.size inb_S10000x64_S10000x64_0_0
abbrev r1_2 : Rect S10000x256 := Rect.unit (s := S10000x256) ![0, 0] S10000x256.size inb_S10000x256_S10000x256_0_0
abbrev r1_3 : Rect S1000x256 := Rect.unit (s := S1000x256) ![0, 0] S1000x256.size inb_S1000x256_S1000x256_0_0

/-- What the body leaves in the output buffer, from the three input buffers' contents: its one store. -/
def out1_3 (x0 : Vec F S1000x64 .bf16) (x1 : Vec F S10000x64 .bf16) (x2 : Vec F S10000x256 .bf16) : Vec F S1000x256 .f32 :=
  View.canon [⟨r1_3, k1_pay1 (View.ld x0 r1_0) (View.ld x1 r1_1) (View.ld x2 r1_2)⟩]

/-- The one store covers the buffer. -/
theorem cover1_3 (p0 : Vec F S1000x256 .f32) (y : S1000x256.Idx) :
    ∃ pc ∈ ([⟨r1_3, p0⟩] : List (View.Piece (Elt F) S1000x256 .f32)), y ∈ pc.1.set :=
  View.cover_of_tiled [⟨r1_3, p0⟩] S1000x256.size (by rfl) y

set_option maxHeartbeats 4000000 in
/-- The body on whole staging buffers: inputs at their contents and the output at anything run to the inputs as
    they were and the output at `out1_3` of them. -/
theorem sound_kernel1 (c : Dev nD) (E : Set ℕ) (i : grid1.Coords) (arg1 : Memref sig .tc .vmem S1000x64 .bf16) (harg1 : arg1.IsWhole) (arg2 : Memref sig .tc .vmem S10000x64 .bf16) (harg2 : arg2.IsWhole) (arg3 : Memref sig .tc .vmem S10000x256 .bf16) (harg3 : arg3.IsWhole) (arg4 : Memref sig .tc .vmem S1000x256 .f32) (harg4 : arg4.IsWhole)
    (x0 : Vec F S1000x64 .bf16) (x1 : Vec F S10000x64 .bf16) (x2 : Vec F S10000x256 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__agg_body i arg1 harg1 arg2 harg2 arg3 harg3 arg4 harg4) K := by
  simp only [cc1__agg_body_eq_skeleton]; unfold cc1__agg_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.KernelIdeal.Hand

end
-- ==== Proof.R1Data.lean ====
/-
  Region 1 (the aggregation stage): what the pipeline's buffers hold at each point. Window 0 is the point's
  1000-row block of hn, windows 1 and 2 the whole of hn and of y (staged once), window 3 receives the point's
  1000 rows of the result. Windows 0 and 1 read ONE array, hn: each holds half of its share, which is all a
  reader needs.
-/
import proofs.«112259_g23313082482977_cont_8to1_1054_47_alg».proof.Proof.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`, at the entry contents `V`: the two readers of hn hold the two halves
    of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.R1Body.lean ====
/-
  Region 1's body obligation: at every grid point, from the windows' current buffers — the three inputs at their
  blocks, the output at anything — the body runs to the inputs as they were and the output at its one store.
-/
import proofs.«112259_g23313082482977_cont_8to1_1054_47_alg».proof.Proof.R1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1 V c 0]; try rfl) t d).trans
    (by unfold Dat.fetched Dat.blockOf iblk1; rw [A_eq1 V c 0]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1 V c 1]; try rfl) t d).trans
    (by unfold Dat.fetched Dat.blockOf iblk1; rw [A_eq1 V c 1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1 V c 2]; try rfl) t d).trans
    (by unfold Dat.fetched Dat.blockOf iblk1; rw [A_eq1 V c 2]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R1Share.lean ====
/-
  Region 1 reads ONE array, hn, through two windows. At the region's entry the buffer's full share is split into
  two halves, one per reading window; at its exit the halves, both still at the entry contents, are joined again.
  The other two arrays (y, read; the result, written) are held whole.
-/
import proofs.«112259_g23313082482977_cont_8to1_1054_47_alg».proof.Proof.R1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's arrays, listed: hn, y, the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1) ∗ (((c : Thread nD τ).loc main_v1) ↦{fullShare} V main_v1)) := by
  unfold Pipeline.arrBufs
  exact bigSep_eq_bigSepL_of_eq [main_v0_0, main_v0_1, main_v1] (by decide) (by decide) _

/-- Each window's array as the pipeline holds it, at contents `G`: a whole buffer at the window's share. -/
theorem arr1_0 (c : Dev nD) (G : Buf (Elt F) ((c : Thread nD τ).loc main_v0_0)) :
    ((cfg1.win 0).arr.view.loc (c : Thread nD τ) ↦[(cfg1.win 0).arr.view.set]{(dat1 V c).share 0} G : sProp 𝕄)
      = (((c : Thread nD τ).loc main_v0_0) ↦{fullShare.left} G) := by
  rw [(arr_whole1 0).set_eq_univ]; rfl
theorem arr1_1 (c : Dev nD) (G : Buf (Elt F) ((c : Thread nD τ).loc main_v0_0)) :
    ((cfg1.win 1).arr.view.loc (c : Thread nD τ) ↦[(cfg1.win 1).arr.view.set]{(dat1 V c).share 1} G : sProp 𝕄)
      = (((c : Thread nD τ).loc main_v0_0) ↦{fullShare.right} G) := by
  rw [(arr_whole1 1).set_eq_univ]; rfl
theorem arr1_2 (c : Dev nD) (G : Buf (Elt F) ((c : Thread nD τ).loc main_v0_1)) :
    ((cfg1.win 2).arr.view.loc (c : Thread nD τ) ↦[(cfg1.win 2).arr.view.set]{(dat1 V c).share 2} G : sProp 𝕄)
      = (((c : Thread nD τ).loc main_v0_1) ↦{fullShare} G) := by
  rw [(arr_whole1 2).set_eq_univ]; rfl
theorem arr1_3 (c : Dev nD) (G : Buf (Elt F) ((c : Thread nD τ).loc main_v1)) :
    ((cfg1.win 3).arr.view.loc (c : Thread nD τ) ↦[(cfg1.win 3).arr.view.set]{(dat1 V c).share 3} G : sProp 𝕄)
      = (((c : Thread nD τ).loc main_v1) ↦{fullShare} G) := by
  rw [(arr_whole1 3).set_eq_univ]; rfl

/-- ENTRY: the unscoped buffers at `V` give the pipeline its arrays at the entry contents — hn's share halved
    between its two readers — and the rest. -/
theorem arrays_of_unscopedBufs1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  rw [show (Pipeline.arrBufs (cfgs 1).spec c (V c) : sProp 𝕄) = Pipeline.arrBufs spec1 c (V c) from rfl, arrBufs1_eq]
  unfold Dat.arrays
  rw [bigSep_W1]
  dsimp only []
  rw [arr1_0 V c, arr1_1 V c, arr1_2 V c, arr1_3 V c]
  iintro ⟨H0, H1, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H3

/-- EXIT: the pipeline's arrays after its last point — hn and y as they were, the result at what the
    write-backs left — and the rest are the unscoped buffers at any contents `V'` that differ from `V` at the
    result only, where they are that. -/
theorem unscopedBufs_of_arrays1 (c : Dev nD) (V' : (b : Ref sig .tc) → Buf (Elt F) ((c : Thread nD τ).loc b))
    (hv : V' main_v1 = (dat1 V c).arrAt 3 cfg1.N) (hrest : ∀ b, b ≠ main_v1 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · rw [show (Pipeline.arrBufs (cfgs 1).spec c V' : sProp 𝕄) = Pipeline.arrBufs spec1 c V' from rfl, arrBufs1_eq]
    unfold Dat.arrays
    rw [bigSep_W1]
    dsimp only []
    rw [arr1_0 V c, arr1_1 V c, arr1_2 V c, arr1_3 V c,
      (dat1 V c).arrAt_in 0 rfl _, (dat1 V c).arrAt_in 1 rfl _, (dat1 V c).arrAt_in 2 rfl _,
      A_eq1 V c 0, A_eq1 V c 1, A_eq1 V c 2, ← hv,
      hrest main_v0_0 (by decide), hrest main_v0_1 (by decide)]
    iintro ⟨Hl, Hr, H1, H3⟩
    isplitl [Hl Hr]
    · iapply (pointsTo_share (PosShare.mem_left_op_right fullShare)).2
      isplitl [Hl] <;> iassumption
    isplitl [H1]; · iexact H1
    iexact H3
  · unfold Pipeline.unscopedRest
    exact bigSep_congr fun b hb => by
      rw [hrest b (fun h => (Finset.mem_sdiff.mp hb).2 (Finset.mem_image.mpr ⟨3, Finset.mem_univ _, h ▸ rfl⟩))]

end Cert.KernelIdeal.Hand

end
-- ==== Proof.Run.lean ====
/-
  The whole program as two regions in order: the h stage writes hn and y, the aggregation stage reads them and
  writes the result. Between the regions every unscoped buffer is held at known contents: the launch memory,
  then with hn and y at what region 0's write-backs leave, then with the result at what region 1's leave.
  Every weakly fair execution terminates, and the final memory holds those contents.
-/
import proofs.«112259_g23313082482977_cont_8to1_1054_47_alg».proof.Proof.R0Body
import proofs.«112259_g23313082482977_cont_8to1_1054_47_alg».proof.Proof.R1Body
import proofs.«112259_g23313082482977_cont_8to1_1054_47_alg».proof.Proof.R1Share

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev VV0 : (c : Dev nD) → (b : Ref sig .tc) → Buf (Elt F) ((c : Thread nD τ).loc b) := fun c b => W0 m c b
/-- After region 0: its arrays at what the pipeline leaves, every other buffer as launched. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)
/-- After region 1: the result array at what the pipeline leaves, every other buffer as region 0 left it. -/
def W2 (c : Dev nD) : Valuation τ sig (Elt F) :=
  Function.update (W1 m c) (Proc.devRef .tc main_v1) ((dat1 (VV1 m) c).arrAt 3 cfg1.N)
abbrev VV2 : (c : Dev nD) → (b : Ref sig .tc) → Buf (Elt F) ((c : Thread nD τ).loc b) := fun c b => W2 m c b
theorem W2_v1 (c : Dev nD) : VV2 m c main_v1 = (dat1 (VV1 m) c).arrAt 3 cfg1.N := by
  unfold VV2 W2; exact Function.update_self ..
theorem W2_of_ne (c : Dev nD) (b : Ref sig .tc) (hb : b ≠ main_v1) : VV2 m c b = VV1 m c b := by
  unfold VV2 W2; exact Function.update_of_ne (StableHlo.devRef_ne_of_ne hb) ..

/-! ## The arguments, hn and y at the end -/

theorem W1_arg (c : Dev nD) (w : Fin cfg0.W) (hw : (cfg0.win w).isOut = false) :
    W1 m c (Proc.devRef .tc (Pipeline.arrRef spec0 w)) = m ((c : Thread nD τ).loc (Pipeline.arrRef spec0 w)) :=
  (W1_arr m c w).trans (((dat0 (VV0 m) c).arrAt_in w hw _).trans (A_eq0 (VV0 m) c w))

theorem W2_main_arg0 (c : Dev nD) : W2 m c (Proc.devRef .tc main_arg0) = m ((c : Thread nD τ).loc main_arg0) :=
  (W2_of_ne m c main_arg0 (by decide)).trans (W1_arg m c 0 rfl)
theorem W2_main_arg1 (c : Dev nD) : W2 m c (Proc.devRef .tc main_arg1) = m ((c : Thread nD τ).loc main_arg1) :=
  (W2_of_ne m c main_arg1 (by decide)).trans (W1_arg m c 2 rfl)
theorem W2_main_arg2 (c : Dev nD) : W2 m c (Proc.devRef .tc main_arg2) = m ((c : Thread nD τ).loc main_arg2) :=
  (W2_of_ne m c main_arg2 (by decide)).trans (W1_arg m c 1 rfl)
theorem W2_main_arg3 (c : Dev nD) : W2 m c (Proc.devRef .tc main_arg3) = m ((c : Thread nD τ).loc main_arg3) :=
  (W2_of_ne m c main_arg3 (by decide)).trans (W1_arg m c 3 rfl)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV1 m) c
abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (VV0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV1 m c)
  hentry c := by
    rw [Pipeline.ownSems0_none]
    have hsplit := arrays_of_unscopedBufs1 (VV1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (VV1 m) c (VV2 m c) (W2_v1 m c) (fun b hb => W2_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds the result array at what region 1's write-backs leave — of hn and y at what region
    0's leave — and each argument array as launched. -/
theorem run_main : θ_run defs (onTc (τ := τ) (main (F := F))) ⟨m, fun _ => 0, ρ⟩ (fun r => ∀ c : Dev nD,
      r.2.mem ((c.tc : Thread nD τ).loc main_v1) = (dat1 (VV1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c)⟩)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.KR0Runs.lean ====
/-
  Region 0 (the h stage) point by point: the body's two control cases as runs on whole staging buffers.
  At the first grid point the body first stores h1 = feat · W1 into the scratch it keeps between points, then
  computes the point's 400 rows from the adj block and that scratch; at every later point it only reads the
  scratch. Each run states what the body leaves in the two output buffers (and, in the first case, in the
  scratch) as the pieces its stores wrote.
-/
import proofs.«112259_g23313082482977_cont_8to1_1054_47_alg».proof.Proof.Gen.Kernel.Launch
import proofs.«112259_g23313082482977_cont_8to1_1054_47_alg».proof.Proof.Gen.Kernel.Skeleton
import proofs.«112259_g23313082482977_cont_8to1_1054_47_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the grid coordinate -/

/-- The body's one conditional: taken exactly when the grid coordinate is 0. -/
abbrev cond0_0 (i : grid0.Coords) : Prop := (Scalar.cmpi .ne (Scalar.extui (Scalar.cmpi .eq (BitVec.ofNat 32 (i 0).val) 0#32)) 0#32) = 1#1
/-- It holds at the first of the 25 points only. -/
theorem hcond0_0 : ∀ t : Fin cfg0.N, cond0_0 (grid0.coords t) ↔ t.val = 0 :=
  (by decide +kernel : ∀ t : Fin grid0.N, cond0_0 (grid0.coords t) ↔ t.val = 0)

/-! ## The case of the first point: the scratch is written, then read -/

set_option maxHeartbeats 4000000 in
/-- The first point: inputs at their contents, outputs and scratch at anything; the body leaves the inputs as
    they were and each output and the scratch with the pieces its stores wrote. -/
noncomputable def kernelRun0_A (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i)
    (x0 : Vec F S10000x256 .f32) (x1 : Vec F S256x64 .f32) (x2 : Vec F S400x10000 .f32) (x3 : Vec F S64x256 .f32) :
    Σ' (L4 : List (View.Piece (Elt F) S400x64 .bf16)) (L5 : List (View.Piece (Elt F) S400x256 .bf16)), { LS0 : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__h_body i arg1 harg1 arg2 harg2 arg3 harg3 arg4 harg4 arg5 harg5 arg6 harg6 arg7 harg7) K } := by
  refine ⟨?_, ?_, ?_, fun E K => ?run⟩
  case run =>
    simp only [cc0__h_body_eq_skeleton]; unfold cc0__h_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

/-! ## The case of every later point: the scratch is only read -/

set_option maxHeartbeats 4000000 in
/-- A later point: inputs at their contents, the scratch at what the first point left, outputs at anything;
    the body leaves inputs and scratch as they were and each output with the pieces its stores wrote. -/
noncomputable def kernelRun0_B (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i)
    (x0 : Vec F S10000x256 .f32) (x1 : Vec F S256x64 .f32) (x2 : Vec F S400x10000 .f32) (x3 : Vec F S64x256 .f32) (xs0 : Vec F S10000x64 .f32) :
    Σ' (L4 : List (View.Piece (Elt F) S400x64 .bf16)), { L5 : List (View.Piece (Elt F) S400x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0__h_body i arg1 harg1 arg2 harg2 arg3 harg3 arg4 harg4 arg5 harg5 arg6 harg6 arg7 harg7) K } := by
  refine ⟨?_, ?_, fun E K => ?run⟩
  case run =>
    simp only [cc0__h_body_eq_skeleton]; unfold cc0__h_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; isplitr; · ipureintro; exact harg7.read_unread _
    iexact HS0

end Cert.Kernel.Hand

end
-- ==== Proof.KR0Data.lean ====
/-
  Region 0 (the h stage): what the pipeline's buffers hold from point to point. Windows 0, 1, 3 (feat, W1, W2)
  are whole arrays staged once; window 2 is the point's 400-row block of adj; windows 4 and 5 receive the point's
  400 rows of hn and of y. The scratch holds h1 = feat · W1 from the first point on, the same contents at every
  later point, so nothing is accumulated: each point's outputs are a function of that point's blocks and of the
  first point's scratch.
-/
import proofs.«112259_g23313082482977_cont_8to1_1054_47_alg».proof.Proof.KR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the memrefs the body is called with -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
def t0_0 : Fin cfg0.N := ⟨0, (show 0 < grid0.N by rw [N_0]; decide)⟩

abbrev ms0_0 (t : Fin cfg0.N) : Memref sig .tc .vmem S10000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S400x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x256 .bf16 := win0_5.stage (cfg0.slots t 5)
abbrev hs0_5 (t : Fin cfg0.N) : (ms0_5 t).IsWhole := hstage0_5 ((cfg0.slots t 5).cast nbuf0_5)
/-- The scratch operand: a whole buffer of the kernel's own. -/
abbrev scM0 : Memref sig .tc .vmem S10000x64 .f32 := Memref.whole cc0_scratch0
abbrev VS0 : View sig .tc .vmem S10000x64 .f32 := scM0.view
/-- One staging buffer per output window, through which its contents are stated. -/
abbrev VO0_4 : View sig .tc .vmem S400x64 .bf16 := (Memref.whole cc0_stg4_0 : Memref sig .tc .vmem S400x64 .bf16).view
abbrev VO0_5 : View sig .tc .vmem S400x256 .bf16 := (Memref.whole cc0_stg5_0 : Memref sig .tc .vmem S400x256 .bf16).view

/-! ## What each case leaves: its pieces cover the buffer, and read back as its contents -/

theorem cover0_A_4 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) (y : S400x64.Idx) :
    ∃ pc ∈ (kernelRun0_A c i arg1 harg1 arg2 harg2 arg3 harg3 arg4 harg4 arg5 harg5 arg6 harg6 arg7 harg7 hc0 x0 x1 x2 x3).1, y ∈ pc.1.set :=
  View.cover_of_tiledL (kernelRun0_A c i arg1 harg1 arg2 harg2 arg3 harg3 arg4 harg4 arg5 harg5 arg6 harg6 arg7 harg7 hc0 x0 x1 x2 x3).1 S400x64.size (by sl_kernel_rfl) y
theorem cover0_A_5 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) (y : S400x256.Idx) :
    ∃ pc ∈ (kernelRun0_A c i arg1 harg1 arg2 harg2 arg3 harg3 arg4 harg4 arg5 harg5 arg6 harg6 arg7 harg7 hc0 x0 x1 x2 x3).2.1, y ∈ pc.1.set :=
  View.cover_of_tiledL (kernelRun0_A c i arg1 harg1 arg2 harg2 arg3 harg3 arg4 harg4 arg5 harg5 arg6 harg6 arg7 harg7 hc0 x0 x1 x2 x3).2.1 S400x256.size (by sl_kernel_rfl) y
theorem scover0_A (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) (y : S10000x64.Idx) :
    ∃ pc ∈ (kernelRun0_A c i arg1 harg1 arg2 harg2 arg3 harg3 arg4 harg4 arg5 harg5 arg6 harg6 arg7 harg7 hc0 x0 x1 x2 x3).2.2.1, y ∈ pc.1.set :=
  View.cover_of_tiledL (kernelRun0_A c i arg1 harg1 arg2 harg2 arg3 harg3 arg4 harg4 arg5 harg5 arg6 harg6 arg7 harg7 hc0 x0 x1 x2 x3).2.2.1 S10000x64.size (by sl_kernel_rfl) y
theorem cover0_B_4 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) (y : S400x64.Idx) :
    ∃ pc ∈ (kernelRun0_B c i arg1 harg1 arg2 harg2 arg3 harg3 arg4 harg4 arg5 harg5 arg6 harg6 arg7 harg7 hc0 x0 x1 x2 x3 xs0).1, y ∈ pc.1.set :=
  View.cover_of_tiledL (kernelRun0_B c i arg1 harg1 arg2 harg2 arg3 harg3 arg4 harg4 arg5 harg5 arg6 harg6 arg7 harg7 hc0 x0 x1 x2 x3 xs0).1 S400x64.size (by sl_kernel_rfl) y
theorem cover0_B_5 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) (y : S400x256.Idx) :
    ∃ pc ∈ (kernelRun0_B c i arg1 harg1 arg2 harg2 arg3 harg3 arg4 harg4 arg5 harg5 arg6 harg6 arg7 harg7 hc0 x0 x1 x2 x3 xs0).2.1, y ∈ pc.1.set :=
  View.cover_of_tiledL (kernelRun0_B c i arg1 harg1 arg2 harg2 arg3 harg3 arg4 harg4 arg5 harg5 arg6 harg6 arg7 harg7 hc0 x0 x1 x2 x3 xs0).2.1 S400x256.size (by sl_kernel_rfl) y

/-- What the first point leaves in the hn window's buffer, -/
def out0_A_4 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) : Vec F S400x64 .bf16 :=
  VO0_4.read (Elt F) (VO0_4.writes (Elt F) VO0_4.junk (kernelRun0_A c i arg1 harg1 arg2 harg2 arg3 harg3 arg4 harg4 arg5 harg5 arg6 harg6 arg7 harg7 hc0 x0 x1 x2 x3).1)
/-- in the y window's buffer, -/
def out0_A_5 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) : Vec F S400x256 .bf16 :=
  VO0_5.read (Elt F) (VO0_5.writes (Elt F) VO0_5.junk (kernelRun0_A c i arg1 harg1 arg2 harg2 arg3 harg3 arg4 harg4 arg5 harg5 arg6 harg6 arg7 harg7 hc0 x0 x1 x2 x3).2.1)
/-- and in the scratch. -/
def sout0_A (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) : Vec F S10000x64 .f32 :=
  VS0.read (Elt F) (VS0.writes (Elt F) VS0.junk (kernelRun0_A c i arg1 harg1 arg2 harg2 arg3 harg3 arg4 harg4 arg5 harg5 arg6 harg6 arg7 harg7 hc0 x0 x1 x2 x3).2.2.1)
/-- What a later point leaves in the hn window's buffer -/
def out0_B_4 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) : Vec F S400x64 .bf16 :=
  VO0_4.read (Elt F) (VO0_4.writes (Elt F) VO0_4.junk (kernelRun0_B c i arg1 harg1 arg2 harg2 arg3 harg3 arg4 harg4 arg5 harg5 arg6 harg6 arg7 harg7 hc0 x0 x1 x2 x3 xs0).1)
/-- and in the y window's buffer. -/
def out0_B_5 (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) : Vec F S400x256 .bf16 :=
  VO0_5.read (Elt F) (VO0_5.writes (Elt F) VO0_5.junk (kernelRun0_B c i arg1 harg1 arg2 harg2 arg3 harg3 arg4 harg4 arg5 harg5 arg6 harg6 arg7 harg7 hc0 x0 x1 x2 x3 xs0).2.1)

/-! ## The scratch after the first point, the outputs after every point -/

/-- The scratch from the first point on: what that point's store left, from the first point's blocks. -/
def h1c (c : Dev nD) : Vec F S10000x64 .f32 :=
  sout0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) scM0 (Memref.isWhole_whole _) ((hcond0_0 t0_0).mpr rfl) (iblk0 V c 0 t0_0) (iblk0 V c 1 t0_0) (iblk0 V c 2 t0_0) (iblk0 V c 3 t0_0)

/-- The two output buffers after the body at point `t`: the first point's case, or a later point's over the scratch. -/
def outs0 (c : Dev nD) (t : Fin cfg0.N) : Vec F S400x64 .bf16 × Vec F S400x256 .bf16 :=
  if h : t.val = 0 then
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t),
     out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t))
  else
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c),
     out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c))

theorem outs0_first (c : Dev nD) (t : Fin cfg0.N) (h : t.val = 0) :
    outs0 V c t = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t),
     out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t)) := dif_pos h
theorem outs0_later (c : Dev nD) (t : Fin cfg0.N) (h : ¬t.val = 0) :
    outs0 V c t = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c),
     out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c)) := dif_neg h

/-! ## The invariant between points -/

/-- The six scoped buffers of the other region, each whole at some contents: untouched here. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region: the scratch at anything, the other scoped buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The invariant before position `n`: before the first point what the launch hands over; afterwards the scratch
    at h1, the rest as before. -/
def PhiS (c : Dev nD) : ℕ → sProp 𝕄
  | 0 => Pipeline.ΦA spec0 c
  | _ + 1 => iprop(iprop(owns (c : Thread nD τ) scM0 fullShare (h1c V c) ∗ rest0 c) ∗ (∃ r, prngReg c r))

theorem PhiS_zero (c : Dev nD) : PhiS V c 0 = Pipeline.ΦA spec0 c := rfl
theorem PhiS_succ (c : Dev nD) (n : ℕ) :
    PhiS V c (n + 1) = iprop(iprop(owns (c : Thread nD τ) scM0 fullShare (h1c V c) ∗ rest0 c) ∗ (∃ r, prngReg c r)) := rfl
theorem PhiS_pos (c : Dev nD) (n : ℕ) (hz : n ≠ 0) :
    PhiS V c n = iprop(iprop(owns (c : Thread nD τ) scM0 fullShare (h1c V c) ∗ rest0 c) ∗ (∃ r, prngReg c r)) := by
  cases n with
  | zero => exact absurd rfl hz
  | succ n => rfl

/-! ## The pipeline's proof data -/

/-- The proof data of region 0 on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outs0 V c t).1
    | ⟨5, _⟩ => (outs0 V c t).2
  Φ t := PhiS V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outs0 V c t).1 := by dsimp only [dat0]
theorem after0_5 (c : Dev nD) (t : Fin cfg0.N) : (dat0 V c).after 5 t = (outs0 V c t).2 := by dsimp only [dat0]

end Cert.Kernel.Hand

end
-- ==== Proof.KR0Body.lean ====
/-
  Region 0's body obligation: at every grid point, from the invariant and the windows' current buffers the body
  runs to the invariant of the next point and the buffers at the proof data's contents. The first point takes
  the scratch at anything and leaves it at h1; every later point takes it at h1 and leaves it so.
-/
import proofs.«112259_g23313082482977_cont_8to1_1054_47_alg».proof.Proof.KR0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's current staging buffer holds its block, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0 V c 0]; try rfl) t d).trans
    (by unfold Dat.fetched Dat.blockOf iblk0; rw [A_eq0 V c 0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0 V c 1]; try rfl) t d).trans
    (by unfold Dat.fetched Dat.blockOf iblk0; rw [A_eq0 V c 1]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0 V c 2]; try rfl) t d).trans
    (by unfold Dat.fetched Dat.blockOf iblk0; rw [A_eq0 V c 2]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0 V c 3]; try rfl) t d).trans
    (by unfold Dat.fetched Dat.blockOf iblk0; rw [A_eq0 V c 3]; try rfl)

theorem Phi_castSucc0 (c : Dev nD) (t : Fin cfg0.N) : (dat0 V c).Φ t.castSucc = PhiS V c t.val := by
  dsimp only [dat0]; simp only [Fin.coe_castSucc]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5]
  rw [show (dat0 V c).Φ t.succ = PhiS V c (t.val + 1) from rfl, PhiS_succ, Phi_castSucc0]
  by_cases hz : t.val = 0
  · rw [outs0_first V c t hz]
    unfold out0_A_4 out0_A_5; (try dsimp only)
    have ht : t = t0_0 := Fin.ext hz
    subst ht
    rw [show PhiS V c (t0_0 : Fin cfg0.N).val = Pipeline.ΦA spec0 c from rfl, PhiA0_eq]
    unfold h1c sout0_A
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t0_0) _ _ _ _ _ _ _ _ _ _ _ _ _ _ ((hcond0_0 t0_0).mpr rfl) (iblk0 V c 0 t0_0) (iblk0 V c 1 t0_0) (iblk0 V c 2 t0_0) (iblk0 V c 3 t0_0)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _ _)
  · rw [outs0_later V c t hz]
    unfold out0_B_4 out0_B_5; (try dsimp only)
    rw [PhiS_pos V c _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun hc => hz ((hcond0_0 t).mp hc)) (iblk0 V c 0 t) (iblk0 V c 1 t) (iblk0 V c 2 t) (iblk0 V c 3 t) (h1c V c)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 from rfl, PhiS_zero]
  try exact Idealize.SL.BI.Entails.refl _

/-- After the last point the invariant gives it back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS0, Hr⟩, Hg⟩
  isplitl [HS0 Hr]
  · isplitl [HS0]
    · iexists _; iexact HS0
    iexact Hr
  iexact Hg

end Cert.Kernel.Hand

end
-- ==== Proof.KR1Run.lean ====
/-
  Region 1 (the aggregation stage) at one grid point: the body loads a 1000-row block of hn, the whole of hn and
  the whole of y, and stores one 1000 × 256 block of the result; nothing is kept between points.
-/
import proofs.«112259_g23313082482977_cont_8to1_1054_47_alg».proof.Proof.Gen.Kernel.Launch
import proofs.«112259_g23313082482977_cont_8to1_1054_47_alg».proof.Proof.Gen.Kernel.Skeleton
import proofs.«112259_g23313082482977_cont_8to1_1054_47_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each the whole of its buffer -/

abbrev r1_0 : Rect S1000x64 := Rect.unit (s := S1000x64) ![0, 0] S1000x64.size inb_S1000x64_S1000x64_0_0
abbrev r1_1 : Rect S10000x64 := Rect.unit (s := S10000x64) ![0, 0] S10000x64.size inb_S10000x64_S10000x64_0_0
abbrev r1_2 : Rect S10000x256 := Rect.unit (s := S10000x256) ![0, 0] S10000x256.size inb_S10000x256_S10000x256_0_0
abbrev r1_3 : Rect S1000x256 := Rect.unit (s := S1000x256) ![0, 0] S1000x256.size inb_S1000x256_S1000x256_0_0

/-- What the body leaves in the output buffer, from the three input buffers' contents: its one store. -/
def out1_3 (x0 : Vec F S1000x64 .bf16) (x1 : Vec F S10000x64 .bf16) (x2 : Vec F S10000x256 .bf16) : Vec F S1000x256 .f32 :=
  View.canon [⟨r1_3, k1_pay1 (View.ld x0 r1_0) (View.ld x1 r1_1) (View.ld x2 r1_2)⟩]

/-- The one store covers the buffer. -/
theorem cover1_3 (p0 : Vec F S1000x256 .f32) (y : S1000x256.Idx) :
    ∃ pc ∈ ([⟨r1_3, p0⟩] : List (View.Piece (Elt F) S1000x256 .f32)), y ∈ pc.1.set :=
  View.cover_of_tiled [⟨r1_3, p0⟩] S1000x256.size (by rfl) y

set_option maxHeartbeats 4000000 in
/-- The body on whole staging buffers: inputs at their contents and the output at anything run to the inputs as
    they were and the output at `out1_3` of them. -/
theorem sound_kernel1 (c : Dev nD) (E : Set ℕ) (i : grid1.Coords) (arg1 : Memref sig .tc .vmem S1000x64 .bf16) (harg1 : arg1.IsWhole) (arg2 : Memref sig .tc .vmem S10000x64 .bf16) (harg2 : arg2.IsWhole) (arg3 : Memref sig .tc .vmem S10000x256 .bf16) (harg3 : arg3.IsWhole) (arg4 : Memref sig .tc .vmem S1000x256 .f32) (harg4 : arg4.IsWhole)
    (x0 : Vec F S1000x64 .bf16) (x1 : Vec F S10000x64 .bf16) (x2 : Vec F S10000x256 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__agg_body i arg1 harg1 arg2 harg2 arg3 harg3 arg4 harg4) K := by
  simp only [cc1__agg_body_eq_skeleton]; unfold cc1__agg_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.Kernel.Hand

end
-- ==== Proof.KR1Data.lean ====
/-
  Region 1 (the aggregation stage): what the pipeline's buffers hold at each point. Window 0 is the point's
  1000-row block of hn, windows 1 and 2 the whole of hn and of y (staged once), window 3 receives the point's
  1000 rows of the result. Windows 0 and 1 read ONE array, hn: each holds half of its share, which is all a
  reader needs.
-/
import proofs.«112259_g23313082482977_cont_8to1_1054_47_alg».proof.Proof.KR1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`, at the entry contents `V`: the two readers of hn hold the two halves
    of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.KR1Body.lean ====
/-
  Region 1's body obligation: at every grid point, from the windows' current buffers — the three inputs at their
  blocks, the output at anything — the body runs to the inputs as they were and the output at its one store.
-/
import proofs.«112259_g23313082482977_cont_8to1_1054_47_alg».proof.Proof.KR1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1 V c 0]; try rfl) t d).trans
    (by unfold Dat.fetched Dat.blockOf iblk1; rw [A_eq1 V c 0]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1 V c 1]; try rfl) t d).trans
    (by unfold Dat.fetched Dat.blockOf iblk1; rw [A_eq1 V c 1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1 V c 2]; try rfl) t d).trans
    (by unfold Dat.fetched Dat.blockOf iblk1; rw [A_eq1 V c 2]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KR1Share.lean ====
/-
  Region 1 reads ONE array, hn, through two windows. At the region's entry the buffer's full share is split into
  two halves, one per reading window; at its exit the halves, both still at the entry contents, are joined again.
  The other two arrays (y, read; the result, written) are held whole.
-/
import proofs.«112259_g23313082482977_cont_8to1_1054_47_alg».proof.Proof.KR1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's arrays, listed: hn, y, the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1) ∗ (((c : Thread nD τ).loc main_v1) ↦{fullShare} V main_v1)) := by
  unfold Pipeline.arrBufs
  exact bigSep_eq_bigSepL_of_eq [main_v0_0, main_v0_1, main_v1] (by decide) (by decide) _

/-- Each window's array as the pipeline holds it, at contents `G`: a whole buffer at the window's share. -/
theorem arr1_0 (c : Dev nD) (G : Buf (Elt F) ((c : Thread nD τ).loc main_v0_0)) :
    ((cfg1.win 0).arr.view.loc (c : Thread nD τ) ↦[(cfg1.win 0).arr.view.set]{(dat1 V c).share 0} G : sProp 𝕄)
      = (((c : Thread nD τ).loc main_v0_0) ↦{fullShare.left} G) := by
  rw [(arr_whole1 0).set_eq_univ]; rfl
theorem arr1_1 (c : Dev nD) (G : Buf (Elt F) ((c : Thread nD τ).loc main_v0_0)) :
    ((cfg1.win 1).arr.view.loc (c : Thread nD τ) ↦[(cfg1.win 1).arr.view.set]{(dat1 V c).share 1} G : sProp 𝕄)
      = (((c : Thread nD τ).loc main_v0_0) ↦{fullShare.right} G) := by
  rw [(arr_whole1 1).set_eq_univ]; rfl
theorem arr1_2 (c : Dev nD) (G : Buf (Elt F) ((c : Thread nD τ).loc main_v0_1)) :
    ((cfg1.win 2).arr.view.loc (c : Thread nD τ) ↦[(cfg1.win 2).arr.view.set]{(dat1 V c).share 2} G : sProp 𝕄)
      = (((c : Thread nD τ).loc main_v0_1) ↦{fullShare} G) := by
  rw [(arr_whole1 2).set_eq_univ]; rfl
theorem arr1_3 (c : Dev nD) (G : Buf (Elt F) ((c : Thread nD τ).loc main_v1)) :
    ((cfg1.win 3).arr.view.loc (c : Thread nD τ) ↦[(cfg1.win 3).arr.view.set]{(dat1 V c).share 3} G : sProp 𝕄)
      = (((c : Thread nD τ).loc main_v1) ↦{fullShare} G) := by
  rw [(arr_whole1 3).set_eq_univ]; rfl

/-- ENTRY: the unscoped buffers at `V` give the pipeline its arrays at the entry contents — hn's share halved
    between its two readers — and the rest. -/
theorem arrays_of_unscopedBufs1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  rw [show (Pipeline.arrBufs (cfgs 1).spec c (V c) : sProp 𝕄) = Pipeline.arrBufs spec1 c (V c) from rfl, arrBufs1_eq]
  unfold Dat.arrays
  rw [bigSep_W1]
  dsimp only []
  rw [arr1_0 V c, arr1_1 V c, arr1_2 V c, arr1_3 V c]
  iintro ⟨H0, H1, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H3

/-- EXIT: the pipeline's arrays after its last point — hn and y as they were, the result at what the
    write-backs left — and the rest are the unscoped buffers at any contents `V'` that differ from `V` at the
    result only, where they are that. -/
theorem unscopedBufs_of_arrays1 (c : Dev nD) (V' : (b : Ref sig .tc) → Buf (Elt F) ((c : Thread nD τ).loc b))
    (hv : V' main_v1 = (dat1 V c).arrAt 3 cfg1.N) (hrest : ∀ b, b ≠ main_v1 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · rw [show (Pipeline.arrBufs (cfgs 1).spec c V' : sProp 𝕄) = Pipeline.arrBufs spec1 c V' from rfl, arrBufs1_eq]
    unfold Dat.arrays
    rw [bigSep_W1]
    dsimp only []
    rw [arr1_0 V c, arr1_1 V c, arr1_2 V c, arr1_3 V c,
      (dat1 V c).arrAt_in 0 rfl _, (dat1 V c).arrAt_in 1 rfl _, (dat1 V c).arrAt_in 2 rfl _,
      A_eq1 V c 0, A_eq1 V c 1, A_eq1 V c 2, ← hv,
      hrest main_v0_0 (by decide), hrest main_v0_1 (by decide)]
    iintro ⟨Hl, Hr, H1, H3⟩
    isplitl [Hl Hr]
    · iapply (pointsTo_share (PosShare.mem_left_op_right fullShare)).2
      isplitl [Hl] <;> iassumption
    isplitl [H1]; · iexact H1
    iexact H3
  · unfold Pipeline.unscopedRest
    exact bigSep_congr fun b hb => by
      rw [hrest b (fun h => (Finset.mem_sdiff.mp hb).2 (Finset.mem_image.mpr ⟨3, Finset.mem_univ _, h ▸ rfl⟩))]

end Cert.Kernel.Hand

end
-- ==== Proof.KRun.lean ====
/-
  The whole program as two regions in order: the h stage writes hn and y, the aggregation stage reads them and
  writes the result. Between the regions every unscoped buffer is held at known contents: the launch memory,
  then with hn and y at what region 0's write-backs leave, then with the result at what region 1's leave.
  Every weakly fair execution terminates, and the final memory holds those contents.
-/
import proofs.«112259_g23313082482977_cont_8to1_1054_47_alg».proof.Proof.KR0Body
import proofs.«112259_g23313082482977_cont_8to1_1054_47_alg».proof.Proof.KR1Body
import proofs.«112259_g23313082482977_cont_8to1_1054_47_alg».proof.Proof.KR1Share

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev VV0 : (c : Dev nD) → (b : Ref sig .tc) → Buf (Elt F) ((c : Thread nD τ).loc b) := fun c b => W0 m c b
/-- After region 0: its arrays at what the pipeline leaves, every other buffer as launched. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)
/-- After region 1: the result array at what the pipeline leaves, every other buffer as region 0 left it. -/
def W2 (c : Dev nD) : Valuation τ sig (Elt F) :=
  Function.update (W1 m c) (Proc.devRef .tc main_v1) ((dat1 (VV1 m) c).arrAt 3 cfg1.N)
abbrev VV2 : (c : Dev nD) → (b : Ref sig .tc) → Buf (Elt F) ((c : Thread nD τ).loc b) := fun c b => W2 m c b
theorem W2_v1 (c : Dev nD) : VV2 m c main_v1 = (dat1 (VV1 m) c).arrAt 3 cfg1.N := by
  unfold VV2 W2; exact Function.update_self ..
theorem W2_of_ne (c : Dev nD) (b : Ref sig .tc) (hb : b ≠ main_v1) : VV2 m c b = VV1 m c b := by
  unfold VV2 W2; exact Function.update_of_ne (StableHlo.devRef_ne_of_ne hb) ..

/-! ## The arguments, hn and y at the end -/

theorem W1_arg (c : Dev nD) (w : Fin cfg0.W) (hw : (cfg0.win w).isOut = false) :
    W1 m c (Proc.devRef .tc (Pipeline.arrRef spec0 w)) = m ((c : Thread nD τ).loc (Pipeline.arrRef spec0 w)) :=
  (W1_arr m c w).trans (((dat0 (VV0 m) c).arrAt_in w hw _).trans (A_eq0 (VV0 m) c w))

theorem W2_main_arg0 (c : Dev nD) : W2 m c (Proc.devRef .tc main_arg0) = m ((c : Thread nD τ).loc main_arg0) :=
  (W2_of_ne m c main_arg0 (by decide)).trans (W1_arg m c 0 rfl)
theorem W2_main_arg1 (c : Dev nD) : W2 m c (Proc.devRef .tc main_arg1) = m ((c : Thread nD τ).loc main_arg1) :=
  (W2_of_ne m c main_arg1 (by decide)).trans (W1_arg m c 2 rfl)
theorem W2_main_arg2 (c : Dev nD) : W2 m c (Proc.devRef .tc main_arg2) = m ((c : Thread nD τ).loc main_arg2) :=
  (W2_of_ne m c main_arg2 (by decide)).trans (W1_arg m c 1 rfl)
theorem W2_main_arg3 (c : Dev nD) : W2 m c (Proc.devRef .tc main_arg3) = m ((c : Thread nD τ).loc main_arg3) :=
  (W2_of_ne m c main_arg3 (by decide)).trans (W1_arg m c 3 rfl)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV1 m) c
abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (VV0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV1 m c)
  hentry c := by
    rw [Pipeline.ownSems0_none]
    have hsplit := arrays_of_unscopedBufs1 (VV1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (VV1 m) c (VV2 m c) (W2_v1 m c) (fun b hb => W2_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds the result array at what region 1's write-backs leave — of hn and y at what region
    0's leave — and each argument array as launched. -/
theorem run_main : θ_run defs (onTc (τ := τ) (main (F := F))) ⟨m, fun _ => 0, ρ⟩ (fun r => ∀ c : Dev nD,
      r.2.mem ((c.tc : Thread nD τ).loc main_v1) = (dat1 (VV1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c)⟩)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.V0Pieces.lean ====
/-
  Region 0 (the h stage): what each control case's stores leave in the staging buffers, as the body's payloads
  of the loaded blocks. A later point leaves the normalized rows and the rows of y computed from the adj block
  and the scratch; the first point leaves feat · W1 in the scratch and the same two payloads over it.
-/
import proofs.«112259_g23313082482977_cont_8to1_1054_47_alg».proof.Proof.R0Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of every rectangle the body loads and stores through. -/
theorem hz2 : (![0, 0] : Fin 2 → Nat) = fun _ => 0 := funext fun a => by fin_cases a <;> rfl

/-! ## A later point: both outputs are the payloads of the adj block and the scratch -/

/-- The normalized rows a later point leaves: the payload of the adj block and the scratch. -/
theorem out0_B_4_eq (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) :
    out0_B_4 c i arg1 harg1 arg2 harg2 arg3 harg3 arg4 harg4 arg5 harg5 arg6 harg6 arg7 harg7 hc0 x0 x1 x2 x3 xs0 = k0_pay3 x2 xs0 := by
  unfold out0_B_4
  rw [View.read_writes_eq_canon _ _ _ (cover0_B_4 c i arg1 harg1 arg2 harg2 arg3 harg3 arg4 harg4 arg5 harg5 arg6 harg6 arg7 harg7 hc0 x0 x1 x2 x3 xs0)]
  unfold kernelRun0_B
  dsimp only
  rw [View.canon_unit_zero hz2]
  simp only [View.readAt_eq_ld, harg1.read_unread, harg2.read_unread, harg3.read_unread, harg4.read_unread, harg7.read_unread, View.ld_unit_zero (S := S400x10000) hz2, View.ld_unit_zero (S := S10000x64) hz2, View.ld_unit_zero (S := S64x256) hz2, View.ld_unit_zero (S := S10000x256) hz2, View.ld_unit_zero (S := S256x64) hz2]

/-- The rows of y a later point leaves: the payload of the adj block, the scratch and W2. -/
theorem out0_B_5_eq (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : ¬cond0_0 i) (x0 : Vec F S10000x256 .f32) (x1 : Vec F S256x64 .f32) (x2 : Vec F S400x10000 .f32) (x3 : Vec F S64x256 .f32) (xs0 : Vec F S10000x64 .f32) :
    out0_B_5 c i arg1 harg1 arg2 harg2 arg3 harg3 arg4 harg4 arg5 harg5 arg6 harg6 arg7 harg7 hc0 x0 x1 x2 x3 xs0 = k0_pay4 x2 xs0 x3 := by
  unfold out0_B_5
  rw [View.read_writes_eq_canon _ _ _ (cover0_B_5 c i arg1 harg1 arg2 harg2 arg3 harg3 arg4 harg4 arg5 harg5 arg6 harg6 arg7 harg7 hc0 x0 x1 x2 x3 xs0)]
  unfold kernelRun0_B
  dsimp only
  rw [View.canon_unit_zero hz2]
  simp only [View.readAt_eq_ld, harg1.read_unread, harg2.read_unread, harg3.read_unread, harg4.read_unread, harg7.read_unread, View.ld_unit_zero (S := S400x10000) hz2, View.ld_unit_zero (S := S10000x64) hz2, View.ld_unit_zero (S := S64x256) hz2, View.ld_unit_zero (S := S10000x256) hz2, View.ld_unit_zero (S := S256x64) hz2]

/-! ## The first point: the scratch receives feat · W1, and the outputs read it back -/

/-- The scratch after the first point: feat · W1. -/
theorem sout0_A_eq (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) :
    sout0_A c i arg1 harg1 arg2 harg2 arg3 harg3 arg4 harg4 arg5 harg5 arg6 harg6 arg7 harg7 hc0 x0 x1 x2 x3 = k0_pay1 x0 x1 := by
  unfold sout0_A
  rw [View.read_writes_eq_canon _ _ _ (scover0_A c i arg1 harg1 arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg1.read_unread, harg2.read_unread, harg3.read_unread, harg4.read_unread, harg7.read_unread, View.ld_unit_zero (S := S400x10000) hz2, View.ld_unit_zero (S := S10000x64) hz2, View.ld_unit_zero (S := S64x256) hz2, View.ld_unit_zero (S := S10000x256) hz2, View.ld_unit_zero (S := S256x64) hz2]

/-- The normalized rows the first point leaves: the same payload, over the scratch it has just stored. -/
theorem out0_A_4_eq (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) :
    out0_A_4 c i arg1 harg1 arg2 harg2 arg3 harg3 arg4 harg4 arg5 harg5 arg6 harg6 arg7 harg7 hc0 x0 x1 x2 x3 = k0_pay3 x2 (k0_pay1 x0 x1) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz2, View.readCov_unit_zero (S := S10000x64) _ hz2]
  simp only [View.readAt_eq_ld, harg1.read_unread, harg2.read_unread, harg3.read_unread, harg4.read_unread, harg7.read_unread, View.ld_unit_zero (S := S400x10000) hz2, View.ld_unit_zero (S := S10000x64) hz2, View.ld_unit_zero (S := S64x256) hz2, View.ld_unit_zero (S := S10000x256) hz2, View.ld_unit_zero (S := S256x64) hz2]

/-- The rows of y the first point leaves. -/
theorem out0_A_5_eq (c : Dev nD) (i : grid0.Coords) (arg1 : Memref sig .tc .vmem S10000x256 .f32) (harg1 : arg1.IsWhole) (arg2 : Memref sig .tc .vmem S256x64 .f32) (harg2 : arg2.IsWhole) (arg3 : Memref sig .tc .vmem S400x10000 .f32) (harg3 : arg3.IsWhole) (arg4 : Memref sig .tc .vmem S64x256 .f32) (harg4 : arg4.IsWhole) (arg5 : Memref sig .tc .vmem S400x64 .bf16) (harg5 : arg5.IsWhole) (arg6 : Memref sig .tc .vmem S400x256 .bf16) (harg6 : arg6.IsWhole) (arg7 : Memref sig .tc .vmem S10000x64 .f32) (harg7 : arg7.IsWhole) (hc0 : cond0_0 i) (x0 : Vec F S10000x256 .f32) (x1 : Vec F S256x64 .f32) (x2 : Vec F S400x10000 .f32) (x3 : Vec F S64x256 .f32) :
    out0_A_5 c i arg1 harg1 arg2 harg2 arg3 harg3 arg4 harg4 arg5 harg5 arg6 harg6 arg7 harg7 hc0 x0 x1 x2 x3 = k0_pay4 x2 (k0_pay1 x0 x1) x3 := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_unit_zero hz2, View.readCov_unit_zero (S := S10000x64) _ hz2]
  simp only [View.readAt_eq_ld, harg1.read_unread, harg2.read_unread, harg3.read_unread, harg4.read_unread, harg7.read_unread, View.ld_unit_zero (S := S400x10000) hz2, View.ld_unit_zero (S := S10000x64) hz2, View.ld_unit_zero (S := S64x256) hz2, View.ld_unit_zero (S := S10000x256) hz2, View.ld_unit_zero (S := S256x64) hz2]

end Cert.KernelIdeal.Hand

end
-- ==== Proof.V0Blocks.lean ====
/-
  Region 0 (the h stage): where the windows' blocks sit in their arrays. feat, W1 and W2 are staged whole, so a
  staged element is the array's element at the same index; the adj block and the two output blocks of point t
  are rows 400 t … 400 t + 399 of their arrays.
-/
import proofs.«112259_g23313082482977_cont_8to1_1054_47_alg».proof.Proof.R0Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The index maps, decided over the grid -/

/-- feat, W1 and W2 are staged whole (block index 0 on both axes); the adj block and the two output blocks of
    point t are block t of their arrays along the rows. -/
theorem idx0 : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- Row r of the n-th block of 400 rows, as a row of a 10000-row array. -/
def blockRow (n : Nat) (hn : n < 25) (r : Fin 400) : Fin 10000 := ⟨400 * n + r.val, by have := r.isLt; omega⟩

theorem blockRow_val (n : Nat) (hn : n < 25) (r : Fin 400) : (blockRow n hn r).val = 400 * n + r.val := rfl

/-! ## The input blocks, read where they sit in their arrays -/

/-- The staged feat is feat. -/
theorem iblk0_0_apply (c : Dev nD) (t : Fin cfg0.N) (r : Fin 10000) (k : Fin 256) :
    (iblk0 V c 0 t : Vec F S10000x256 .f32) (ix2 r k) = (V c main_arg0 : S10000x256.Idx → Elt F .f32) (ix2 r k) := by
  obtain ⟨⟨e0, e1⟩, -⟩ := idx0 t
  unfold iblk0
  rw [View.read_apply]
  show V c main_arg0 _ = V c main_arg0 _
  refine congrArg _ (funext fun a => Fin.ext ?_)
  match a with
  | ⟨0, _⟩ => show win0_0.index t (0 : Fin 2) * 10000 + 1 * r.val = r.val; rw [e0]; omega
  | ⟨1, _⟩ => show win0_0.index t (1 : Fin 2) * 256 + 1 * k.val = k.val; rw [e1]; omega

/-- The staged W1 is W1. -/
theorem iblk0_1_apply (c : Dev nD) (t : Fin cfg0.N) (k : Fin 256) (q : Fin 64) :
    (iblk0 V c 1 t : Vec F S256x64 .f32) (ix2 k q) = (V c main_arg2 : S256x64.Idx → Elt F .f32) (ix2 k q) := by
  obtain ⟨-, ⟨e0, e1⟩, -⟩ := idx0 t
  unfold iblk0
  rw [View.read_apply]
  show V c main_arg2 _ = V c main_arg2 _
  refine congrArg _ (funext fun a => Fin.ext ?_)
  match a with
  | ⟨0, _⟩ => show win0_1.index t (0 : Fin 2) * 256 + 1 * k.val = k.val; rw [e0]; omega
  | ⟨1, _⟩ => show win0_1.index t (1 : Fin 2) * 64 + 1 * q.val = q.val; rw [e1]; omega

/-- The adj block of point t holds rows 400 t … 400 t + 399 of adj. -/
theorem iblk0_2_apply (c : Dev nD) (t : Fin cfg0.N) (ht : t.val < 25) (r : Fin 400) (k : Fin 10000) :
    (iblk0 V c 2 t : Vec F S400x10000 .f32) (ix2 r k) = (V c main_arg1 : S10000x10000.Idx → Elt F .f32) (ix2 (blockRow t.val ht r) k) := by
  obtain ⟨-, -, ⟨e0, e1⟩, -⟩ := idx0 t
  unfold iblk0
  rw [View.read_apply]
  show V c main_arg1 _ = V c main_arg1 _
  refine congrArg _ (funext fun a => Fin.ext ?_)
  match a with
  | ⟨0, _⟩ => show win0_2.index t (0 : Fin 2) * 400 + 1 * r.val = 400 * t.val + r.val; rw [e0]; omega
  | ⟨1, _⟩ => show win0_2.index t (1 : Fin 2) * 10000 + 1 * k.val = k.val; rw [e1]; omega

/-- The staged W2 is W2. -/
theorem iblk0_3_apply (c : Dev nD) (t : Fin cfg0.N) (k : Fin 64) (q : Fin 256) :
    (iblk0 V c 3 t : Vec F S64x256 .f32) (ix2 k q) = (V c main_arg3 : S64x256.Idx → Elt F .f32) (ix2 k q) := by
  obtain ⟨-, -, -, ⟨e0, e1⟩, -⟩ := idx0 t
  unfold iblk0
  rw [View.read_apply]
  show V c main_arg3 _ = V c main_arg3 _
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 256 + 1 * q.val = q.val; rw [e1]; omega

/-! ## The output blocks: where an element of point t's block sits in its array -/

/-- An element of point t's block of the normalized rows sits at row 400 t + r, the same lane. -/
theorem emb0_4 (t : Fin cfg0.N) (ht : t.val < 25) (r : Fin 400) (q : Fin 64) :
    (((cfg0.win 4).blk t).view.emb (ix2 r q) : S10000x64.Idx) = ix2 (blockRow t.val ht r) q := by
  obtain ⟨-, -, -, -, ⟨e0, e1⟩, -⟩ := idx0 t
  refine funext fun a => Fin.ext ?_
  match a with
  | ⟨0, _⟩ => show win0_4.index t (0 : Fin 2) * 400 + 1 * r.val = 400 * t.val + r.val; rw [e0]; omega
  | ⟨1, _⟩ => show win0_4.index t (1 : Fin 2) * 64 + 1 * q.val = q.val; rw [e1]; omega

/-- An element of point t's block of y sits at row 400 t + r, the same lane. -/
theorem emb0_5 (t : Fin cfg0.N) (ht : t.val < 25) (r : Fin 400) (q : Fin 256) :
    (((cfg0.win 5).blk t).view.emb (ix2 r q) : S10000x256.Idx) = ix2 (blockRow t.val ht r) q := by
  obtain ⟨-, -, -, -, -, ⟨e0, e1⟩⟩ := idx0 t
  refine funext fun a => Fin.ext ?_
  match a with
  | ⟨0, _⟩ => show win0_5.index t (0 : Fin 2) * 400 + 1 * r.val = 400 * t.val + r.val; rw [e0]; omega
  | ⟨1, _⟩ => show win0_5.index t (1 : Fin 2) * 256 + 1 * q.val = q.val; rw [e1]; omega

end Cert.KernelIdeal.Hand

end
-- ==== Proof.Spec.lean ====
/-
  The two programs as formulas over the extended reals, entry by entry, of the four argument arrays
  feat [10000, 256], adj [10000, 10000], W1 [256, 64], W2 [64, 256].

  Shared by both:   h1 = feat · W1,   h = max (adj · h1) 0,   nrm r = max (√ Σ_c h r c ²) ε,
                    hn = h / nrm,     y = h · W2,             sim r j = Σ_k hn r k · hn j k.
  The kernel:       da r j = sim r j where θ ≤ sim r j, else 0;   l1 r = max (Σ_j da r j) ε;
                    out r c = (Σ_j da r j · y j c) / l1 r.
  The reference:    da' r j = 0 where sim r j < θ, else sim r j;  l1' r = max (Σ_j |da' r j|) ε;
                    out' r c = Σ_j (da' r j / l1' r) · y j c.
  θ and ε are the two float words both programs spell (0.6 and 1e-12 as f32), kept as words.
-/
import Idealize.ShloMosaic.PureOps.Ideal
import Idealize.ShloMosaic.Lib.ValueIdx

noncomputable section

namespace Cert.Spec

open Idealize.ShloMosaic Idealize.ShloMosaic.ValueIdx

/-- An [R, C] array of extended reals. -/
abbrev Arr2 (R C : Nat) : Type := (⟨2, ![R, C]⟩ : Shape).Idx → EReal

/-- The similarity threshold, the f32 word both programs spell for 0.6. -/
def thr : EReal := Ideal.ofBits .f32 0x3F19999A#32
/-- The floor of both norms, the f32 word both programs spell for 1e-12. -/
def eps : EReal := Ideal.ofBits .f32 0x2B8CBCCC#32

section
variable (feat : Arr2 10000 256) (adj : Arr2 10000 10000) (W1 : Arr2 256 64) (W2 : Arr2 64 256)

/-- h1 = feat · W1. -/
def h1 (r : Fin 10000) (c : Fin 64) : EReal := ∑ k : Fin 256, feat (ix2 r k) * W1 (ix2 k c)
/-- h = relu (adj · h1). -/
def h (r : Fin 10000) (c : Fin 64) : EReal := max (∑ k : Fin 10000, adj (ix2 r k) * h1 feat W1 k c) 0
/-- The floored Euclidean norm of row r of h. -/
def nrm (r : Fin 10000) : EReal := max (Ideal.sqrt (∑ c : Fin 64, h feat adj W1 r c * h feat adj W1 r c)) eps
/-- The row-normalized h. -/
def hn (r : Fin 10000) (c : Fin 64) : EReal := Ideal.div (h feat adj W1 r c) (nrm feat adj W1 r)
/-- y = h · W2. -/
def y (r : Fin 10000) (c : Fin 256) : EReal := ∑ k : Fin 64, h feat adj W1 r k * W2 (ix2 k c)
/-- The cosine similarity of rows r and j. -/
def sim (r j : Fin 10000) : EReal := ∑ k : Fin 64, hn feat adj W1 r k * hn feat adj W1 j k

/-- The kernel's thresholded similarity. -/
def daK (r j : Fin 10000) : EReal := if thr ≤ sim feat adj W1 r j then sim feat adj W1 r j else 0
/-- The kernel's floored row sum of it. -/
def l1K (r : Fin 10000) : EReal := max (∑ j : Fin 10000, daK feat adj W1 r j) eps
/-- The kernel's result: aggregate, then divide. -/
def outK (r : Fin 10000) (c : Fin 256) : EReal :=
  Ideal.div (∑ j : Fin 10000, daK feat adj W1 r j * y feat adj W1 W2 j c) (l1K feat adj W1 r)

/-- The reference's thresholded similarity. -/
def daR (r j : Fin 10000) : EReal := if sim feat adj W1 r j < thr then 0 else sim feat adj W1 r j
/-- The reference's floored row sum of absolute values. -/
def l1R (r : Fin 10000) : EReal := max (∑ j : Fin 10000, max (daR feat adj W1 r j) (-(daR feat adj W1 r j))) eps
/-- The reference's result: divide, then aggregate. -/
def outR (r : Fin 10000) (c : Fin 256) : EReal :=
  ∑ j : Fin 10000, Ideal.div (daR feat adj W1 r j) (l1R feat adj W1 r) * y feat adj W1 W2 j c

/-- The three arrays the kernel writes, as whole arrays. -/
def HN : Arr2 10000 64 := fun i => hn feat adj W1 (i 0) (i 1)
def Y : Arr2 10000 256 := fun i => y feat adj W1 W2 (i 0) (i 1)
def OutK : Arr2 10000 256 := fun i => outK feat adj W1 W2 (i 0) (i 1)
/-- The reference's result as a whole array. -/
def OutR : Arr2 10000 256 := fun i => outR feat adj W1 W2 (i 0) (i 1)

end

end Cert.Spec

end
-- ==== Proof.LibColumnForms.lean ====
/-
  Layout and reduction operations of a vector program read at explicit coordinates, at the extended reals.

  A shape cast to the same shape is the identity; the column forms of a kept dimension: a vector [a] cast to a column
  [a, 1] reads the vector's entry, and a column [a, 1] broadcast along rows to [a, b] reads the column's entry; a sum
  over the second axis of an [a, b] array, from the zero accumulator, is the sum of the row; and a selection on a
  comparison `≥` of extended reals is an `if` on the order.
-/
import Idealize.ShloMosaic.Lib.ValueLayout
import Idealize.ShloMosaic.PureOps.Ideal.Laws

noncomputable section

namespace Cert.KernelIdeal.Pay

open Idealize.ShloMosaic Idealize.ShloMosaic.ValueIdx

variable {α : Type}

/-- A shape cast to the same shape reads the operand at the same index. -/
theorem shapeCast_same_apply {s : Shape} (x : s.Idx → α) (h : s.ShapeCasts s) (j : s.Idx) :
    shapeCast s x h j = x j :=
  shapeCast_apply x h j j rfl

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads elementwise. -/
theorem sqrt_apply {s : Shape} {φ : FTy} (x : FVec Ideal s φ) (i : s.Idx) : sqrt x i = Ideal.sqrt (x i) := rfl

/-- The sum over the second axis of an `[a, b]` array from the zero accumulator, read at row `r`: the sum of the row. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun ax => Fin.ext ?_)
  match ax with
  | ⟨0, _⟩ => rfl
  | ⟨1, _⟩ => rfl

/-- A selection on a comparison `≥` of extended reals is an `if` on the order. -/
theorem select_oge (s t a b : EReal) :
    Scalar.select (Ideal.cmp .oge s t) a b = if t ≤ s then a else b := by
  by_cases h : t ≤ s
  · rw [if_pos h]
    have e : Ideal.cmp .oge s t = 1#1 := by simp only [Ideal.cmp, h, decide_true, BitVec.ofBool_true]; rfl
    rw [e]; exact select_one a b
  · rw [if_neg h]
    have e : Ideal.cmp .oge s t = 0#1 := by simp only [Ideal.cmp, h, decide_false, BitVec.ofBool_false]; rfl
    rw [e]; exact select_zero a b

end Cert.KernelIdeal.Pay

end
-- ==== Proof.KPay0.lean ====
/-
  The first region's four payloads read at an entry, at the extended reals.

  Each matrix product into the zero accumulator is, at an entry, the sum over the contracted coordinate of the products
  of the operands' entries; the rectifier is a maximum with zero; the row normalization divides an entry by the floored
  square root of its row's sum of squares; a change of float format is the identity.
-/
import proofs.«112259_g23313082482977_cont_8to1_1054_47_alg».proof.Proof.Gen.KernelIdeal.Skeleton
import proofs.«112259_g23313082482977_cont_8to1_1054_47_alg».proof.Proof.Spec
import proofs.«112259_g23313082482977_cont_8to1_1054_47_alg».proof.Proof.LibColumnForms

noncomputable section

namespace Cert.KernelIdeal.Pay

open Cert.KernelIdeal Cert.KernelIdeal.Gen Idealize.ShloMosaic Idealize.ShloMosaic.ValueIdx

/-! ## The product [10000, 256] × [256, 64] at an entry -/

theorem lhs_d1_0 (i : S10000x64.Idx) (q : dot_S10000x256_S256x64_S10000x64_1_0_0_1_n_n.contr.Idx) :
    (dot_S10000x256_S256x64_S10000x64_1_0_0_1_n_n.lhsIdx i q 0).val = (i 0).val := by
  unfold DotDims.lhsIdx
  rw [dif_neg (show ¬(0 : Fin S10000x256.rank) ∈ dot_S10000x256_S256x64_S10000x64_1_0_0_1_n_n.lhsBatch by decide),
    dif_pos (show (0 : Fin S10000x256.rank) ∈ dot_S10000x256_S256x64_S10000x64_1_0_0_1_n_n.lhsNonContracting by decide)]
  rfl

theorem rhs_d1_1 (i : S10000x64.Idx) (q : dot_S10000x256_S256x64_S10000x64_1_0_0_1_n_n.contr.Idx) :
    (dot_S10000x256_S256x64_S10000x64_1_0_0_1_n_n.rhsIdx i q 1).val = (i 1).val := by
  unfold DotDims.rhsIdx
  rw [dif_neg (show ¬(1 : Fin S256x64.rank) ∈ dot_S10000x256_S256x64_S10000x64_1_0_0_1_n_n.rhsBatch by decide),
    dif_pos (show (1 : Fin S256x64.rank) ∈ dot_S10000x256_S256x64_S10000x64_1_0_0_1_n_n.rhsNonContracting by decide)]
  rfl

theorem matmul_d1_apply (l : FVec Ideal S10000x256 .f32) (w : FVec Ideal S256x64 .f32) (r : Fin 10000) (q : Fin 64) :
    matmul dot_S10000x256_S256x64_S10000x64_1_0_0_1_n_n none l w (constant (F := Ideal) S10000x64 .f32 0x00000000#32) (ix2 r q)
      = ∑ k : Fin 256, l (ix2 r k) * w (ix2 k q) := by
  simp only [matmul]
  rw [Ideal.matmul_constant_zero_apply,
    ← Equiv.sum_comp (contrEquiv1 dot_S10000x256_S256x64_S10000x64_1_0_0_1_n_n 256 rfl rfl).symm]
  refine Finset.sum_congr rfl fun k _ => ?_
  have hk := contrEquiv1_symm_val dot_S10000x256_S256x64_S10000x64_1_0_0_1_n_n 256 rfl rfl k
  have el : dot_S10000x256_S256x64_S10000x64_1_0_0_1_n_n.lhsIdx (ix2 r q)
      ((contrEquiv1 dot_S10000x256_S256x64_S10000x64_1_0_0_1_n_n 256 rfl rfl).symm k) = ix2 r k :=
    funext fun a => Fin.ext (by
      match a with
      | ⟨0, _⟩ => exact lhs_d1_0 _ _
      | ⟨1, _⟩ => exact (dot_S10000x256_S256x64_S10000x64_1_0_0_1_n_n.lhsIdx_val_of_single rfl _ _).trans hk)
  have er : dot_S10000x256_S256x64_S10000x64_1_0_0_1_n_n.rhsIdx (ix2 r q)
      ((contrEquiv1 dot_S10000x256_S256x64_S10000x64_1_0_0_1_n_n 256 rfl rfl).symm k) = ix2 k q :=
    funext fun a => Fin.ext (by
      match a with
      | ⟨0, _⟩ => exact (dot_S10000x256_S256x64_S10000x64_1_0_0_1_n_n.rhsIdx_val_of_single rfl _ _).trans hk
      | ⟨1, _⟩ => exact rhs_d1_1 _ _)
  rw [el, er]

/-- The first payload, `feat · W1`, at an entry. -/
theorem pay1_apply (x0 : FVec Ideal S10000x256 .f32) (x1 : FVec Ideal S256x64 .f32) (r : Fin 10000) (q : Fin 64) :
    k0_pay1 (F := Ideal) x0 x1 (ix2 r q) = ∑ k : Fin 256, x0 (ix2 r k) * x1 (ix2 k q) := by
  unfold k0_pay1
  rw [shapeCast_same_apply, matmul_d1_apply]

/-! ## The product [400, 10000] × [10000, 64] at an entry -/

theorem lhs_d2_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl

theorem rhs_d2_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl

theorem matmul_d2_apply (l : FVec Ideal S400x10000 .f32) (w : FVec Ideal S10000x64 .f32) (r : Fin 400) (q : Fin 64) :
    matmul dot_S400x10000_S10000x64_S400x64_1_0_0_1_n_n none l w (constant (F := Ideal) S400x64 .f32 0x00000000#32) (ix2 r q)
      = ∑ k : Fin 10000, l (ix2 r k) * w (ix2 k q) := by
  simp only [matmul]
  rw [Ideal.matmul_constant_zero_apply,
    ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 r q)
      ((contrEquiv1 dot_S400x10000_S10000x64_S400x64_1_0_0_1_n_n 10000 rfl rfl).symm k) = ix2 r k :=
    funext fun a => Fin.ext (by
      match a with
      | ⟨0, _⟩ => exact lhs_d2_0 _ _
      | ⟨1, _⟩ => exact (dot_S400x10000_S10000x64_S400x64_1_0_0_1_n_n.lhsIdx_val_of_single rfl _ _).trans hk)
  have er : dot_S400x10000_S10000x64_S400x64_1_0_0_1_n_n.rhsIdx (ix2 r q)
      ((contrEquiv1 dot_S400x10000_S10000x64_S400x64_1_0_0_1_n_n 10000 rfl rfl).symm k) = ix2 k q :=
    funext fun a => Fin.ext (by
      match a with
      | ⟨0, _⟩ => exact (dot_S400x10000_S10000x64_S400x64_1_0_0_1_n_n.rhsIdx_val_of_single rfl _ _).trans hk
      | ⟨1, _⟩ => exact rhs_d2_1 _ _)
  rw [el, er]

/-- The second payload, the rectified `adj · h1` of a block of rows, at an entry. -/
theorem pay2_apply (x2 : FVec Ideal S400x10000 .f32) (xs : FVec Ideal S10000x64 .f32) (r : Fin 400) (q : Fin 64) :
    k0_pay2 (F := Ideal) x2 xs (ix2 r q) = max (∑ k : Fin 10000, x2 (ix2 r k) * xs (ix2 k q)) 0 := by
  unfold k0_pay2
  rw [maximumf_apply, matmul_d2_apply, broadcast_apply]
  show max _ (Ideal.ofBits .f32 0x00000000#32) = _
  rw [Ideal.ofBits_zero_f32]

/-! ## The row normalization at an entry -/

/-- The third payload: an entry of the second divided by the floored Euclidean norm of its row. -/
theorem pay3_apply (x2 : FVec Ideal S400x10000 .f32) (xs : FVec Ideal S10000x64 .f32) (r : Fin 400) (q : Fin 64) :
    k0_pay3 (F := Ideal) x2 xs (ix2 r q)
      = Ideal.div (k0_pay2 (F := Ideal) x2 xs (ix2 r q))
          (max (Ideal.sqrt (∑ c : Fin 64, k0_pay2 (F := Ideal) x2 xs (ix2 r c) * k0_pay2 (F := Ideal) x2 xs (ix2 r c)))
            Cert.Spec.eps) := by
  unfold k0_pay3
  rw [truncf_apply, divf_apply, broadcastTo_a1_ab_apply, maximumf_apply, sqrt_apply, shapeCast_a_a1_apply]
  refine congrArg (Ideal.div _) (congrArg₂ max (congrArg Ideal.sqrt ?_) rfl)
  refine (rowSum_apply _ _ _ _ r).trans ?_
  rfl

/-! ## The product [400, 64] × [64, 256] at an entry -/

theorem lhs_d3_0 (i : S400x256.Idx) (q : dot_S400x64_S64x256_S400x256_1_0_0_1_n_n.contr.Idx) :
    (dot_S400x64_S64x256_S400x256_1_0_0_1_n_n.lhsIdx i q 0).val = (i 0).val := by
  unfold DotDims.lhsIdx
  rw [dif_neg (show ¬(0 : Fin S400x64.rank) ∈ dot_S400x64_S64x256_S400x256_1_0_0_1_n_n.lhsBatch by decide),
    dif_pos (show (0 : Fin S400x64.rank) ∈ dot_S400x64_S64x256_S400x256_1_0_0_1_n_n.lhsNonContracting by decide)]
  rfl

theorem rhs_d3_1 (i : S400x256.Idx) (q : dot_S400x64_S64x256_S400x256_1_0_0_1_n_n.contr.Idx) :
    (dot_S400x64_S64x256_S400x256_1_0_0_1_n_n.rhsIdx i q 1).val = (i 1).val := by
  unfold DotDims.rhsIdx
  rw [dif_neg (show ¬(1 : Fin S64x256.rank) ∈ dot_S400x64_S64x256_S400x256_1_0_0_1_n_n.rhsBatch by decide),
    dif_pos (show (1 : Fin S64x256.rank) ∈ dot_S400x64_S64x256_S400x256_1_0_0_1_n_n.rhsNonContracting by decide)]
  rfl

theorem matmul_d3_apply (l : FVec Ideal S400x64 .f32) (w : FVec Ideal S64x256 .f32) (r : Fin 400) (q : Fin 256) :
    matmul dot_S400x64_S64x256_S400x256_1_0_0_1_n_n none l w (constant (F := Ideal) S400x256 .f32 0x00000000#32) (ix2 r q)
      = ∑ k : Fin 64, l (ix2 r k) * w (ix2 k q) := by
  simp only [matmul]
  rw [Ideal.matmul_constant_zero_apply,
    ← Equiv.sum_comp (contrEquiv1 dot_S400x64_S64x256_S400x256_1_0_0_1_n_n 64 rfl rfl).symm]
  refine Finset.sum_congr rfl fun k _ => ?_
  have hk := contrEquiv1_symm_val dot_S400x64_S64x256_S400x256_1_0_0_1_n_n 64 rfl rfl k
  have el : dot_S400x64_S64x256_S400x256_1_0_0_1_n_n.lhsIdx (ix2 r q)
      ((contrEquiv1 dot_S400x64_S64x256_S400x256_1_0_0_1_n_n 64 rfl rfl).symm k) = ix2 r k :=
    funext fun a => Fin.ext (by
      match a with
      | ⟨0, _⟩ => exact lhs_d3_0 _ _
      | ⟨1, _⟩ => exact (dot_S400x64_S64x256_S400x256_1_0_0_1_n_n.lhsIdx_val_of_single rfl _ _).trans hk)
  have er : dot_S400x64_S64x256_S400x256_1_0_0_1_n_n.rhsIdx (ix2 r q)
      ((contrEquiv1 dot_S400x64_S64x256_S400x256_1_0_0_1_n_n 64 rfl rfl).symm k) = ix2 k q :=
    funext fun a => Fin.ext (by
      match a with
      | ⟨0, _⟩ => exact (dot_S400x64_S64x256_S400x256_1_0_0_1_n_n.rhsIdx_val_of_single rfl _ _).trans hk
      | ⟨1, _⟩ => exact rhs_d3_1 _ _)
  rw [el, er]

/-- The fourth payload, the second times `W2`, at an entry. -/
theorem pay4_apply (x2 : FVec Ideal S400x10000 .f32) (xs : FVec Ideal S10000x64 .f32) (x3 : FVec Ideal S64x256 .f32)
    (r : Fin 400) (q : Fin 256) :
    k0_pay4 (F := Ideal) x2 xs x3 (ix2 r q) = ∑ k : Fin 64, k0_pay2 (F := Ideal) x2 xs (ix2 r k) * x3 (ix2 k q) := by
  unfold k0_pay4
  rw [truncf_apply, matmul_d3_apply]

end Cert.KernelIdeal.Pay

end
-- ==== Proof.V0Math.lean ====
/-
  Region 0 (the h stage): the body's payloads over a point's blocks are the specification's rows. With the
  staged feat, W1, W2 equal to the arrays, the adj block holding rows 400 n … 400 n + 399 of adj, and the scratch
  holding h1 = feat · W1, the relu payload is those rows of h, the normalized payload those rows of hn, and the
  last payload those rows of y = h · W2.
-/
import proofs.«112259_g23313082482977_cont_8to1_1054_47_alg».proof.Proof.V0Blocks
import proofs.«112259_g23313082482977_cont_8to1_1054_47_alg».proof.Proof.Spec
import proofs.«112259_g23313082482977_cont_8to1_1054_47_alg».proof.Proof.KPay0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (feat : Cert.Spec.Arr2 10000 256) (adj : Cert.Spec.Arr2 10000 10000) (W1 : Cert.Spec.Arr2 256 64) (W2 : Cert.Spec.Arr2 64 256)
variable (x0 : Vec Ideal S10000x256 .f32) (x1 : Vec Ideal S256x64 .f32) (x2 : Vec Ideal S400x10000 .f32) (x3 : Vec Ideal S64x256 .f32) (xs : Vec Ideal S10000x64 .f32)

/-- The scratch payload of the staged feat and W1 is h1 = feat · W1. -/
theorem pay1_spec (h0 : ∀ (r : Fin 10000) (k : Fin 256), x0 (ix2 r k) = feat (ix2 r k))
    (h1 : ∀ (k : Fin 256) (q : Fin 64), x1 (ix2 k q) = W1 (ix2 k q)) (r : Fin 10000) (q : Fin 64) :
    k0_pay1 x0 x1 (ix2 r q) = Cert.Spec.h1 feat W1 r q := by
  refine (Cert.KernelIdeal.Pay.pay1_apply x0 x1 r q).trans ?_
  unfold Cert.Spec.h1
  exact Finset.sum_congr rfl fun k _ => by rw [h0 r k, h1 k q]

/-- Over the n-th block of adj and a scratch holding h1, the relu payload is the block's rows of h. -/
theorem pay2_spec (n : Nat) (hn : n < 25)
    (h2 : ∀ (r : Fin 400) (k : Fin 10000), x2 (ix2 r k) = adj (ix2 (blockRow n hn r) k))
    (hs : ∀ (k : Fin 10000) (q : Fin 64), xs (ix2 k q) = Cert.Spec.h1 feat W1 k q) (r : Fin 400) (q : Fin 64) :
    k0_pay2 x2 xs (ix2 r q) = Cert.Spec.h feat adj W1 (blockRow n hn r) q := by
  refine (Cert.KernelIdeal.Pay.pay2_apply x2 xs r q).trans ?_
  unfold Cert.Spec.h
  exact congrArg (fun s => max s 0) (Finset.sum_congr rfl fun k _ => by rw [h2 r k, hs k q])

/-- The normalized-rows payload is the block's rows of hn. -/
theorem pay3_spec (n : Nat) (hn : n < 25)
    (h2 : ∀ (r : Fin 400) (k : Fin 10000), x2 (ix2 r k) = adj (ix2 (blockRow n hn r) k))
    (hs : ∀ (k : Fin 10000) (q : Fin 64), xs (ix2 k q) = Cert.Spec.h1 feat W1 k q) (r : Fin 400) (q : Fin 64) :
    k0_pay3 x2 xs (ix2 r q) = Cert.Spec.hn feat adj W1 (blockRow n hn r) q := by
  have hp : ∀ q' : Fin 64, k0_pay2 x2 xs (ix2 r q') = Cert.Spec.h feat adj W1 (blockRow n hn r) q' :=
    fun q' => pay2_spec feat adj W1 x2 xs n hn h2 hs r q'
  refine (Cert.KernelIdeal.Pay.pay3_apply x2 xs r q).trans ?_
  unfold Cert.Spec.hn Cert.Spec.nrm
  rw [hp q]
  exact congrArg (fun s => Ideal.div (Cert.Spec.h feat adj W1 (blockRow n hn r) q) (max (Ideal.sqrt s) Cert.Spec.eps))
    (Finset.sum_congr rfl fun c _ => by rw [hp c])

/-- The y payload is the block's rows of y = h · W2. -/
theorem pay4_spec (n : Nat) (hn : n < 25)
    (h2 : ∀ (r : Fin 400) (k : Fin 10000), x2 (ix2 r k) = adj (ix2 (blockRow n hn r) k))
    (hs : ∀ (k : Fin 10000) (q : Fin 64), xs (ix2 k q) = Cert.Spec.h1 feat W1 k q)
    (h3 : ∀ (k : Fin 64) (q : Fin 256), x3 (ix2 k q) = W2 (ix2 k q)) (r : Fin 400) (q : Fin 256) :
    k0_pay4 x2 xs x3 (ix2 r q) = Cert.Spec.y feat adj W1 W2 (blockRow n hn r) q := by
  refine (Cert.KernelIdeal.Pay.pay4_apply x2 xs x3 r q).trans ?_
  unfold Cert.Spec.y
  exact Finset.sum_congr rfl fun k _ => by rw [pay2_spec feat adj W1 x2 xs n hn h2 hs r k, h3 k q]

end

end Cert.KernelIdeal.Hand

end
-- ==== Proof.V0Final.lean ====
/-
  Region 0 (the h stage): the two output arrays after the 25 grid points, as whole arrays. Each point writes back
  its 400-row block; the first point's block is computed over the scratch it has just filled with h1 = feat · W1,
  every later point's over that same scratch; so point t's blocks are rows 400 t … 400 t + 399 of hn and of y.
  Row r lies in the block of point r / 400, the blocks cover both arrays, and the arrays end as hn and y of the
  region's input arrays.
-/
import proofs.«112259_g23313082482977_cont_8to1_1054_47_alg».proof.Proof.V0Pieces
import proofs.«112259_g23313082482977_cont_8to1_1054_47_alg».proof.Proof.V0Math

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- A grid point is one of 25. -/
theorem lt25 (t : Fin cfg0.N) : t.val < 25 := lt_of_lt_of_eq t.isLt N_0

/-! ## The scratch, and what each point leaves in its two output blocks -/

/-- The scratch from the first point on is h1 = feat · W1. -/
theorem h1c_apply (c : Dev nD) (k : Fin 10000) (q : Fin 64) :
    (h1c (F := Ideal) V c) (ix2 k q) = Cert.Spec.h1 (V c main_arg0) (V c main_arg2) k q := by
  unfold h1c
  refine (congrFun (sout0_A_eq (F := Ideal) c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) scM0 (Memref.isWhole_whole _) ((hcond0_0 t0_0).mpr rfl) (iblk0 V c 0 t0_0) (iblk0 V c 1 t0_0) (iblk0 V c 2 t0_0) (iblk0 V c 3 t0_0)) (ix2 k q)).trans ?_
  exact pay1_spec (V c main_arg0) (V c main_arg2) (iblk0 V c 0 t0_0) (iblk0 V c 1 t0_0) (iblk0_0_apply V c t0_0) (iblk0_1_apply V c t0_0) k q

/-- Point t leaves rows 400 t … 400 t + 399 of hn in the first output block, -/
theorem outs0_4_apply (c : Dev nD) (t : Fin cfg0.N) (ht : t.val < 25) (r : Fin 400) (q : Fin 64) :
    ((outs0 (F := Ideal) V c t).1 : Vec Ideal S400x64 .bf16) (ix2 r q)
      = Cert.Spec.hn (V c main_arg0) (V c main_arg1) (V c main_arg2) (blockRow t.val ht r) q := by
  by_cases h : t.val = 0
  · rw [outs0_first V c t h]
    dsimp only
    refine (congrFun (out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t)) (ix2 r q)).trans ?_
    exact pay3_spec (V c main_arg0) (V c main_arg1) (V c main_arg2) (iblk0 V c 2 t) (k0_pay1 (iblk0 V c 0 t) (iblk0 V c 1 t)) t.val ht (iblk0_2_apply V c t ht)
      (pay1_spec (V c main_arg0) (V c main_arg2) (iblk0 V c 0 t) (iblk0 V c 1 t) (iblk0_0_apply V c t) (iblk0_1_apply V c t)) r q
  · rw [outs0_later V c t h]
    dsimp only
    refine (congrFun (out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c)) (ix2 r q)).trans ?_
    exact pay3_spec (V c main_arg0) (V c main_arg1) (V c main_arg2) (iblk0 V c 2 t) (h1c V c) t.val ht (iblk0_2_apply V c t ht) (h1c_apply V c) r q

/-- and the same rows of y in the second. -/
theorem outs0_5_apply (c : Dev nD) (t : Fin cfg0.N) (ht : t.val < 25) (r : Fin 400) (q : Fin 256) :
    ((outs0 (F := Ideal) V c t).2 : Vec Ideal S400x256 .bf16) (ix2 r q)
      = Cert.Spec.y (V c main_arg0) (V c main_arg1) (V c main_arg2) (V c main_arg3) (blockRow t.val ht r) q := by
  by_cases h : t.val = 0
  · rw [outs0_first V c t h]
    dsimp only
    refine (congrFun (out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h) (iblk0 V c 0 t) (iblk0 V c 1 t) (iblk0 V c 2 t) (iblk0 V c 3 t)) (ix2 r q)).trans ?_
    exact pay4_spec (V c main_arg0) (V c main_arg1) (V c main_arg2) (V c main_arg3) (iblk0 V c 2 t) (iblk0 V c 3 t) (k0_pay1 (iblk0 V c 0 t) (iblk0 V c 1 t)) t.val ht (iblk0_2_apply V c t ht)
      (pay1_spec (V c main_arg0) (V c main_arg2) (iblk0 V c 0 t) (iblk0 V c 1 t) (iblk0_0_apply V c t) (iblk0_1_apply V c t)) (iblk0_3_apply V c t) r q
  · rw [outs0_later V c t h]
    dsimp only
    refine (congrFun (out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0_0 t).mp hc)) (iblk0 V c 0 t) (iblk0 V c 1 t) (iblk0 V c 2 t) (iblk0 V c 3 t) (h1c V c)) (ix2 r q)).trans ?_
    exact pay4_spec (V c main_arg0) (V c main_arg1) (V c main_arg2) (V c main_arg3) (iblk0 V c 2 t) (iblk0 V c 3 t) (h1c V c) t.val ht (iblk0_2_apply V c t ht) (h1c_apply V c) (iblk0_3_apply V c t) r q

/-! ## What each point writes back is its block of the whole-array functions -/

theorem flushed0_4 (c : Dev nD) (t : Fin cfg0.N) :
    (dat0 (F := Ideal) V c).flushed 4 t
      = ((cfg0.win 4).blk t).view.read (Elt Ideal) (Cert.Spec.HN (V c main_arg0) (V c main_arg1) (V c main_arg2)) := by
  have ht : t.val < 25 := lt25 t
  show (cfg0.win 4).cut (grid0.coords t) ((dat0 V c).after 4 t) = _
  rw [after0_4]
  funext j
  obtain ⟨r, q, rfl⟩ : ∃ (r : Fin 400) (q : Fin 64), j = ix2 r q := ⟨j 0, j 1, eq_ix2 j⟩
  rw [View.read_apply]
  show ((outs0 V c t).1 : Vec Ideal S400x64 .bf16) (ix2 r q) = Cert.Spec.HN (V c main_arg0) (V c main_arg1) (V c main_arg2) (((cfg0.win 4).blk t).view.emb (ix2 r q))
  rw [emb0_4 t ht r q]
  exact outs0_4_apply V c t ht r q

theorem flushed0_5 (c : Dev nD) (t : Fin cfg0.N) :
    (dat0 (F := Ideal) V c).flushed 5 t
      = ((cfg0.win 5).blk t).view.read (Elt Ideal) (Cert.Spec.Y (V c main_arg0) (V c main_arg1) (V c main_arg2) (V c main_arg3)) := by
  have ht : t.val < 25 := lt25 t
  show (cfg0.win 5).cut (grid0.coords t) ((dat0 V c).after 5 t) = _
  rw [after0_5]
  funext j
  obtain ⟨r, q, rfl⟩ : ∃ (r : Fin 400) (q : Fin 256), j = ix2 r q := ⟨j 0, j 1, eq_ix2 j⟩
  rw [View.read_apply]
  show ((outs0 V c t).2 : Vec Ideal S400x256 .bf16) (ix2 r q) = Cert.Spec.Y (V c main_arg0) (V c main_arg1) (V c main_arg2) (V c main_arg3) (((cfg0.win 5).blk t).view.emb (ix2 r q))
  rw [emb0_5 t ht r q]
  exact outs0_5_apply V c t ht r q

/-! ## Every row is in the block of the point its row number divided by 400 names -/

theorem cover0_4 (i : S10000x64.Idx) :
    ∃ t : Fin cfg0.N, (cfg0.win 4).flush t = true ∧ i ∈ ((cfg0.win 4).blk t).view.set := by
  have hi : (i 0).val < 10000 := (i 0).isLt
  have hl : (i 1).val < 64 := (i 1).isLt
  have hN : cfg0.N = 25 := N_0
  have hlt : (i 0).val / 400 < cfg0.N := by rw [hN]; omega
  obtain ⟨-, -, -, -, ⟨e0, e1⟩, -⟩ := idx0 ⟨(i 0).val / 400, hlt⟩
  refine ⟨⟨(i 0).val / 400, hlt⟩, flush0_4 _, ?_⟩
  show i ∈ ((View.whole main_v0_0).slice (win0_4.rect ⟨(i 0).val / 400, hlt⟩)).set
  rw [View.set_slice_whole, Rect.mem_set_unit]
  intro a
  match a with
  | ⟨0, _⟩ =>
    show win0_4.index ⟨(i 0).val / 400, hlt⟩ (0 : Fin 2) * 400 ≤ (i 0).val ∧ (i 0).val < win0_4.index ⟨(i 0).val / 400, hlt⟩ (0 : Fin 2) * 400 + 400
    rw [e0]; show (i 0).val / 400 * 400 ≤ (i 0).val ∧ (i 0).val < (i 0).val / 400 * 400 + 400; omega
  | ⟨1, _⟩ =>
    show win0_4.index ⟨(i 0).val / 400, hlt⟩ (1 : Fin 2) * 64 ≤ (i 1).val ∧ (i 1).val < win0_4.index ⟨(i 0).val / 400, hlt⟩ (1 : Fin 2) * 64 + 64
    rw [e1]; omega

theorem cover0_5 (i : S10000x256.Idx) :
    ∃ t : Fin cfg0.N, (cfg0.win 5).flush t = true ∧ i ∈ ((cfg0.win 5).blk t).view.set := by
  have hi : (i 0).val < 10000 := (i 0).isLt
  have hl : (i 1).val < 256 := (i 1).isLt
  have hN : cfg0.N = 25 := N_0
  have hlt : (i 0).val / 400 < cfg0.N := by rw [hN]; omega
  obtain ⟨-, -, -, -, -, ⟨e0, e1⟩⟩ := idx0 ⟨(i 0).val / 400, hlt⟩
  refine ⟨⟨(i 0).val / 400, hlt⟩, flush0_5 _, ?_⟩
  show i ∈ ((View.whole main_v0_1).slice (win0_5.rect ⟨(i 0).val / 400, hlt⟩)).set
  rw [View.set_slice_whole, Rect.mem_set_unit]
  intro a
  match a with
  | ⟨0, _⟩ =>
    show win0_5.index ⟨(i 0).val / 400, hlt⟩ (0 : Fin 2) * 400 ≤ (i 0).val ∧ (i 0).val < win0_5.index ⟨(i 0).val / 400, hlt⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, hlt⟩ (1 : Fin 2) * 256 ≤ (i 1).val ∧ (i 1).val < win0_5.index ⟨(i 0).val / 400, hlt⟩ (1 : Fin 2) * 256 + 256
    rw [e1]; omega

/-! ## The two arrays after the region -/

/-- After the 25 points the first output array is hn of the region's input arrays, -/
theorem final0_4 (c : Dev nD) :
    (dat0 (F := Ideal) V c).arrAt 4 cfg0.N = Cert.Spec.HN (V c main_arg0) (V c main_arg1) (V c main_arg2) :=
  (dat0 (F := Ideal) V c).arrAt_eq_of_cover 4 (Cert.Spec.HN (V c main_arg0) (V c main_arg1) (V c main_arg2)) (fun t _ => flushed0_4 V c t) cover0_4

/-- and the second is y. -/
theorem final0_5 (c : Dev nD) :
    (dat0 (F := Ideal) V c).arrAt 5 cfg0.N = Cert.Spec.Y (V c main_arg0) (V c main_arg1) (V c main_arg2) (V c main_arg3) :=
  (dat0 (F := Ideal) V c).arrAt_eq_of_cover 5 (Cert.Spec.Y (V c main_arg0) (V c main_arg1) (V c main_arg2) (V c main_arg3)) (fun t _ => flushed0_5 V c t) cover0_5

end Cert.KernelIdeal.Hand

end
-- ==== Proof.V1Out.lean ====
/-
  Region 1's one store, read: what a grid point leaves in the output's staging buffer is the body's payload of
  the three input buffers' contents.
-/
import proofs.«112259_g23313082482977_cont_8to1_1054_47_alg».proof.Proof.R1Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The zero offsets of a rank-2 whole-buffer rectangle. -/
theorem zero_off2 : (![0, 0] : Fin 2 → Nat) = fun _ => 0 := funext fun a => by fin_cases a <;> rfl

/-- The body loads each input buffer whole and stores one whole buffer: what it leaves is the payload. -/
theorem out1_3_eq (x0 : Vec F S1000x64 .bf16) (x1 : Vec F S10000x64 .bf16) (x2 : Vec F S10000x256 .bf16) :
    out1_3 x0 x1 x2 = k1_pay1 x0 x1 x2 := by
  unfold out1_3
  rw [View.canon_unit_zero zero_off2]
  simp only [View.ld_unit_zero (S := S1000x64) zero_off2, View.ld_unit_zero (S := S10000x64) zero_off2,
    View.ld_unit_zero (S := S10000x256) zero_off2]

end Cert.KernelIdeal.Hand

end
-- ==== Proof.V1Blocks.lean ====
/-
  Region 1's windows, read: at grid point t window 0 holds rows 1000·t … 1000·t + 999 of hn, windows 1 and 2
  the whole of hn and of y, and window 3's block is rows 1000·t … of the result.
-/
import proofs.«112259_g23313082482977_cont_8to1_1054_47_alg».proof.Proof.R1Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (V : (c : Dev nD) → (b : Ref sig .tc) → Buf (Elt F) ((c : Thread nD τ).loc b))

/-- The printed index maps over the ten grid points: windows 0 and 3 step by rows with the point, windows 1 and 2
    stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point t is rows 1000·t … 1000·t + 999 of hn. -/
theorem iblk1_0_apply (c : Dev nD) (t : Fin cfg1.N) (x : S1000x64.Idx) (k : S10000x64.Idx)
    (hk0 : (k 0).val = 1000 * t.val + (x 0).val) (hk1 : (k 1).val = (x 1).val) :
    (iblk1 V c 0 t : Vec F S1000x64 .bf16) x = (V c main_v0_0 : S10000x64.Idx → Elt F .bf16) k := by
  obtain ⟨e0, e1, -⟩ := idx_facts1 t
  unfold iblk1
  rw [View.read_apply]
  show V c main_v0_0 _ = V c main_v0_0 _
  congr 1
  funext a
  apply Fin.ext
  match a with
  | ⟨0, _⟩ => show win1_0.index t 0 * 1000 + 1 * (x 0).val = (k 0).val; rw [e0, hk0]; omega
  | ⟨1, _⟩ => show win1_0.index t 1 * 64 + 1 * (x 1).val = (k 1).val; rw [e1, hk1]; omega

/-- Window 1's block at every point is the whole of hn. -/
theorem iblk1_1_eq (c : Dev nD) (t : Fin cfg1.N) :
    (iblk1 V c 1 t : Vec F S10000x64 .bf16) = (V c main_v0_0 : S10000x64.Idx → Elt F .bf16) := by
  obtain ⟨-, -, e0, e1, -⟩ := idx_facts1 t
  funext x
  unfold iblk1
  rw [View.read_apply]
  show V c main_v0_0 _ = V c main_v0_0 _
  congr 1
  funext a
  apply Fin.ext
  match a with
  | ⟨0, _⟩ => show win1_1.index t 0 * 10000 + 1 * (x 0).val = (x 0).val; rw [e0]; omega
  | ⟨1, _⟩ => show win1_1.index t 1 * 64 + 1 * (x 1).val = (x 1).val; rw [e1]; omega

/-- Window 2's block at every point is the whole of y. -/
theorem iblk1_2_eq (c : Dev nD) (t : Fin cfg1.N) :
    (iblk1 V c 2 t : Vec F S10000x256 .bf16) = (V c main_v0_1 : S10000x256.Idx → Elt F .bf16) := by
  obtain ⟨-, -, -, -, e0, e1, -⟩ := idx_facts1 t
  funext x
  unfold iblk1
  rw [View.read_apply]
  show V c main_v0_1 _ = V c main_v0_1 _
  congr 1
  funext a
  apply Fin.ext
  match a with
  | ⟨0, _⟩ => show win1_2.index t 0 * 10000 + 1 * (x 0).val = (x 0).val; rw [e0]; omega
  | ⟨1, _⟩ => show win1_2.index t 1 * 256 + 1 * (x 1).val = (x 1).val; rw [e1]; omega

end Cert.KernelIdeal.Hand

end
-- ==== Proof.V1Agg.lean ====
/-
  The aggregation stage as a function of ANY row-normalized array hn [10000, 64] and any y [10000, 256]:
  sim r j = Σ_k hn r k · hn j k,  da r j = sim r j where θ ≤ sim r j, else 0,
  out r c = (Σ_j da r j · y j c) / max (Σ_j da r j) ε.
  The specification's result is this function of its own hn and y.
-/
import proofs.«112259_g23313082482977_cont_8to1_1054_47_alg».proof.Proof.Spec

noncomputable section

namespace Cert.Agg

open Idealize.ShloMosaic Idealize.ShloMosaic.ValueIdx Cert.Spec

/-- The similarity of rows r and j of hn. -/
def simOf (hn : Arr2 10000 64) (r j : Fin 10000) : EReal := ∑ k : Fin 64, hn (ix2 r k) * hn (ix2 j k)
/-- The thresholded similarity. -/
def daOf (hn : Arr2 10000 64) (r j : Fin 10000) : EReal := if thr ≤ simOf hn r j then simOf hn r j else 0
/-- One entry of the aggregate: the da-weighted sum of y's column c, over the floored row sum of da. -/
def aggAt (hn : Arr2 10000 64) (y : Arr2 10000 256) (r : Fin 10000) (c : Fin 256) : EReal :=
  Ideal.div (∑ j : Fin 10000, daOf hn r j * y (ix2 j c)) (max (∑ j : Fin 10000, daOf hn r j) eps)
/-- The aggregate as a whole array. -/
def aggOf (hn : Arr2 10000 64) (y : Arr2 10000 256) : Arr2 10000 256 := fun i => aggAt hn y (i 0) (i 1)

/-- The same formula over a block of 1000 rows against the whole: entry (r, q) from the rows' block x0 [1000, 64], the
    whole x1 [10000, 64] and x2 [10000, 256]. -/
def payAt (x0 : Arr2 1000 64) (x1 : Arr2 10000 64) (x2 : Arr2 10000 256) (r : Fin 1000) (q : Fin 256) : EReal :=
  Ideal.div
    (∑ j : Fin 10000, (if thr ≤ ∑ k : Fin 64, x0 (ix2 r k) * x1 (ix2 j k) then ∑ k : Fin 64, x0 (ix2 r k) * x1 (ix2 j k) else 0) * x2 (ix2 j q))
    (max (∑ j : Fin 10000, (if thr ≤ ∑ k : Fin 64, x0 (ix2 r k) * x1 (ix2 j k) then ∑ k : Fin 64, x0 (ix2 r k) * x1 (ix2 j k) else 0)) eps)

/-- The specification's kernel result is the aggregate of its own hn and y. -/
theorem OutK_eq (feat : Arr2 10000 256) (adj : Arr2 10000 10000) (W1 : Arr2 256 64) (W2 : Arr2 64 256) :
    OutK feat adj W1 W2 = aggOf (HN feat adj W1) (Y feat adj W1 W2) := rfl

end Cert.Agg

end
-- ==== Proof.V1Array.lean ====
/-
  Region 1's result array: every grid point writes back the rows 1000·t … 1000·t + 999 of the aggregate of the
  arrays hn and y the region finds, and the ten blocks cover the array; so the array ends as that aggregate, which
  for the specification's hn and y is the specification's result.
-/
import proofs.«112259_g23313082482977_cont_8to1_1054_47_alg».proof.Proof.V1Out
import proofs.«112259_g23313082482977_cont_8to1_1054_47_alg».proof.Proof.V1Blocks
import proofs.«112259_g23313082482977_cont_8to1_1054_47_alg».proof.Proof.V1Agg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.Spec Cert.Agg

/-- What "the payload computes the block formula" says. -/
def PayReads : Prop := ∀ (x0 : FVec Ideal S1000x64 .bf16) (x1 : FVec Ideal S10000x64 .bf16) (x2 : FVec Ideal S10000x256 .bf16)
    (r : Fin 1000) (q : Fin 256), k1_pay1 (F := Ideal) x0 x1 x2 (ix2 r q) = payAt x0 x1 x2 r q

/-- One entry of one point's block: with the first operand rows 1000·T … of hn, the payload at (r, q) is the aggregate
    at row 1000·T + r, column q. -/
theorem point1_3 (hpay : PayReads) (hn : S10000x64.Idx → EReal) (yy : S10000x256.Idx → EReal) (x0 : FVec Ideal S1000x64 .bf16)
    (T : Nat) (y : S1000x256.Idx) (i : S10000x256.Idx)
    (h0 : ∀ (x : S1000x64.Idx) (k : S10000x64.Idx), (k 0).val = 1000 * T + (x 0).val → (k 1).val = (x 1).val → x0 x = hn k)
    (hi0 : (i 0).val = 1000 * T + (y 0).val) (hi1 : (i 1).val = (y 1).val) :
    k1_pay1 (F := Ideal) x0 hn yy y = aggOf hn yy i := by
  obtain ⟨r, q, rfl⟩ : ∃ (r : Fin 1000) (q : Fin 256), y = ix2 r q := ⟨y 0, y 1, eq_ix2 y⟩
  obtain ⟨R, Q, rfl⟩ : ∃ (R : Fin 10000) (Q : Fin 256), i = ix2 R Q := ⟨i 0, i 1, eq_ix2 i⟩
  have hR : R.val = 1000 * T + r.val := hi0
  have hQ : Q = q := Fin.ext hi1
  subst hQ
  rw [hpay]
  show payAt x0 hn yy r Q = aggAt hn yy R Q
  unfold payAt aggAt daOf simOf
  have e : ∀ k : Fin 64, x0 (ix2 r k) = hn (ix2 R k) := fun k => h0 (ix2 r k) (ix2 R k) hR rfl
  simp only [e]

variable (V : (c : Dev nD) → (b : Ref sig .tc) → Buf (Elt Ideal) ((c : Thread nD τ).loc b))

/-- What point t writes back is block t of the aggregate of the arrays the region finds. -/
theorem flushed1_3_eq (hpay : PayReads) (c : Dev nD) (t : Fin cfg1.N) :
    (dat1 (F := Ideal) V c).flushed 3 t
      = ((cfg1.win 3).blk t).view.read (Elt Ideal) (aggOf (V c main_v0_0) (V c main_v0_1)) := by
  show (cfg1.win 3).cut (grid1.coords t) ((dat1 V c).after 3 t) = _
  rw [after1_3, out1_3_eq, iblk1_1_eq, iblk1_2_eq]
  obtain ⟨-, -, -, -, -, -, e0, e1⟩ := idx_facts1 t
  funext y
  refine point1_3 hpay (V c main_v0_0) (V c main_v0_1) (iblk1 V c 0 t) t.val y (((cfg1.win 3).blk t).view.emb y)
    (fun x k hk0 hk1 => iblk1_0_apply V c t x k hk0 hk1) ?_ ?_
  · show win1_3.index t (0 : Fin 2) * 1000 + 1 * (y 0).val = 1000 * t.val + (y 0).val
    rw [e0]; omega
  · show win1_3.index t (1 : Fin 2) * 256 + 1 * (y 1).val = (y 1).val
    rw [e1]; omega

/-- An index of the result array is in point t's block iff each coordinate is in the block's range on its axis. -/
theorem mem_blk1_3 (t : Fin cfg1.N) (i : S10000x256.Idx) :
    i ∈ ((cfg1.win 3).blk t).view.set ↔ ∀ a : Fin 2, win1_3.index t a * S1000x256.size a ≤ (i a).val
      ∧ (i a).val < win1_3.index t a * S1000x256.size a + S1000x256.size a := by
  show i ∈ ((View.whole main_v1).slice (win1_3.rect t)).set ↔ _
  rw [View.set_slice_whole, Rect.mem_set_unit]
  exact Iff.rfl

/-- Row r of the result is in the block of point r / 1000, which is written back. -/
theorem cover1_3_arr (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hN : grid1.N = 10 := N_1
  have ht : (i 0).val / 1000 < cfg1.N := by show (i 0).val / 1000 < grid1.N; rw [hN]; omega
  obtain ⟨-, -, -, -, -, -, e0, e1⟩ := idx_facts1 ⟨(i 0).val / 1000, ht⟩
  refine ⟨⟨(i 0).val / 1000, ht⟩, flush1_3 _, ?_⟩
  rw [mem_blk1_3]
  intro a
  match a with
  | ⟨0, _⟩ =>
    show win1_3.index ⟨(i 0).val / 1000, ht⟩ (0 : Fin 2) * 1000 ≤ (i 0).val
      ∧ (i 0).val < win1_3.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_3.index ⟨(i 0).val / 1000, ht⟩ (1 : Fin 2) * 256 ≤ (i 1).val
      ∧ (i 1).val < win1_3.index ⟨(i 0).val / 1000, ht⟩ (1 : Fin 2) * 256 + 256
    rw [e1]; omega

/-- The result array after the region: the aggregate of the hn and y arrays the region finds. -/
theorem final1_3_agg (hpay : PayReads) (c : Dev nD) :
    (dat1 (F := Ideal) V c).arrAt 3 cfg1.N = aggOf (V c main_v0_0) (V c main_v0_1) :=
  (dat1 (F := Ideal) V c).arrAt_eq_of_cover 3 (aggOf (V c main_v0_0) (V c main_v0_1))
    (fun t _ => flushed1_3_eq V hpay c t) cover1_3_arr

end Cert.KernelIdeal.Hand

end
-- ==== Proof.KPay1.lean ====
/-
  The second region's payload read at an entry, at the extended reals.

  With `s r j = Σ_k a r k · b j k` the product of a block of rows with all rows (both operands contracted along their
  second axis), and `d r j = s r j` where `θ ≤ s r j`, else `0`, the payload at `(r, q)` is
  `(Σ_j d r j · y j q) / max (Σ_j d r j) ε`. A change of float format is the identity.
-/
import proofs.«112259_g23313082482977_cont_8to1_1054_47_alg».proof.Proof.Gen.KernelIdeal.Skeleton
import proofs.«112259_g23313082482977_cont_8to1_1054_47_alg».proof.Proof.Spec
import proofs.«112259_g23313082482977_cont_8to1_1054_47_alg».proof.Proof.LibColumnForms

noncomputable section

namespace Cert.KernelIdeal.Pay

open Cert.KernelIdeal Cert.KernelIdeal.Gen Idealize.ShloMosaic Idealize.ShloMosaic.ValueIdx

/-- The similarity of row `r` of the block `a` and row `j` of `b`. -/
def simP (a : FVec Ideal S1000x64 .bf16) (b : FVec Ideal S10000x64 .bf16) (r : Fin 1000) (j : Fin 10000) : EReal :=
  ∑ k : Fin 64, a (ix2 r k) * b (ix2 j k)

/-- The thresholded similarity: the similarity where the threshold is at most it, else zero. -/
def daP (a : FVec Ideal S1000x64 .bf16) (b : FVec Ideal S10000x64 .bf16) (r : Fin 1000) (j : Fin 10000) : EReal :=
  if Cert.Spec.thr ≤ simP a b r j then simP a b r j else 0

/-! ## The product [1000, 64] × [10000, 64]ᵀ at an entry -/

theorem lhs_d4_0 (i : S1000x10000.Idx) (q : dot_S1000x64_S10000x64_S1000x10000_1_1_0_0_n_n.contr.Idx) :
    (dot_S1000x64_S10000x64_S1000x10000_1_1_0_0_n_n.lhsIdx i q 0).val = (i 0).val := by
  unfold DotDims.lhsIdx
  rw [dif_neg (show ¬(0 : Fin S1000x64.rank) ∈ dot_S1000x64_S10000x64_S1000x10000_1_1_0_0_n_n.lhsBatch by decide),
    dif_pos (show (0 : Fin S1000x64.rank) ∈ dot_S1000x64_S10000x64_S1000x10000_1_1_0_0_n_n.lhsNonContracting by decide)]
  rfl

theorem rhs_d4_0 (i : S1000x10000.Idx) (q : dot_S1000x64_S10000x64_S1000x10000_1_1_0_0_n_n.contr.Idx) :
    (dot_S1000x64_S10000x64_S1000x10000_1_1_0_0_n_n.rhsIdx i q 0).val = (i 1).val := by
  unfold DotDims.rhsIdx
  rw [dif_neg (show ¬(0 : Fin S10000x64.rank) ∈ dot_S1000x64_S10000x64_S1000x10000_1_1_0_0_n_n.rhsBatch by decide),
    dif_pos (show (0 : Fin S10000x64.rank) ∈ dot_S1000x64_S10000x64_S1000x10000_1_1_0_0_n_n.rhsNonContracting by decide)]
  rfl

theorem matmul_d4_apply (l : FVec Ideal S1000x64 .bf16) (w : FVec Ideal S10000x64 .bf16) (r : Fin 1000) (j : Fin 10000) :
    matmul dot_S1000x64_S10000x64_S1000x10000_1_1_0_0_n_n none l w (constant (F := Ideal) S1000x10000 .f32 0x00000000#32) (ix2 r j)
      = ∑ k : Fin 64, l (ix2 r k) * w (ix2 j k) := by
  simp only [matmul]
  rw [Ideal.matmul_constant_zero_apply,
    ← Equiv.sum_comp (contrEquiv1 dot_S1000x64_S10000x64_S1000x10000_1_1_0_0_n_n 64 rfl rfl).symm]
  refine Finset.sum_congr rfl fun k _ => ?_
  have hk := contrEquiv1_symm_val dot_S1000x64_S10000x64_S1000x10000_1_1_0_0_n_n 64 rfl rfl k
  have el : dot_S1000x64_S10000x64_S1000x10000_1_1_0_0_n_n.lhsIdx (ix2 r j)
      ((contrEquiv1 dot_S1000x64_S10000x64_S1000x10000_1_1_0_0_n_n 64 rfl rfl).symm k) = ix2 r k :=
    funext fun a => Fin.ext (by
      match a with
      | ⟨0, _⟩ => exact lhs_d4_0 _ _
      | ⟨1, _⟩ => exact (dot_S1000x64_S10000x64_S1000x10000_1_1_0_0_n_n.lhsIdx_val_of_single rfl _ _).trans hk)
  have er : dot_S1000x64_S10000x64_S1000x10000_1_1_0_0_n_n.rhsIdx (ix2 r j)
      ((contrEquiv1 dot_S1000x64_S10000x64_S1000x10000_1_1_0_0_n_n 64 rfl rfl).symm k) = ix2 j k :=
    funext fun a => Fin.ext (by
      match a with
      | ⟨0, _⟩ => exact rhs_d4_0 _ _
      | ⟨1, _⟩ => exact (dot_S1000x64_S10000x64_S1000x10000_1_1_0_0_n_n.rhsIdx_val_of_single rfl _ _).trans hk)
  rw [el, er]

/-- The similarity stage: the product of the two re-cast operands at an entry. -/
theorem sim_apply (a : FVec Ideal S1000x64 .bf16) (b : FVec Ideal S10000x64 .bf16)
    (ha : S1000x64.ShapeCasts S1000x64) (hb : S10000x64.ShapeCasts S10000x64) (r : Fin 1000) (j : Fin 10000) :
    matmul dot_S1000x64_S10000x64_S1000x10000_1_1_0_0_n_n none (shapeCast S1000x64 a ha) (shapeCast S10000x64 b hb)
        (constant (F := Ideal) S1000x10000 .f32 0x00000000#32) (ix2 r j) = simP a b r j := by
  rw [matmul_d4_apply]
  unfold simP
  refine Finset.sum_congr rfl fun k _ => ?_
  rw [shapeCast_same_apply, shapeCast_same_apply]

/-! ## The threshold at an entry -/

/-- The selection of an array where the threshold is at most it, else zero, at an entry. -/
theorem thresh_apply (s : FVec Ideal S1000x10000 .f32) (i : S1000x10000.Idx) :
    select (cmpf .oge s (broadcast S1000x10000 (Scalar.ofBits (F := Ideal) .f32 0x3F19999A#32))) s
        (broadcast S1000x10000 (Scalar.ofBits (F := Ideal) .f32 0x00000000#32)) i
      = if Cert.Spec.thr ≤ s i then s i else 0 := by
  rw [select_apply, cmpf_apply, broadcast_apply, broadcast_apply]
  show Scalar.select (Ideal.cmp .oge (s i) (Ideal.ofBits .f32 0x3F19999A#32)) (s i) (Ideal.ofBits .f32 0x00000000#32) = _
  rw [select_oge, Ideal.ofBits_zero_f32]
  rfl

/-! ## The product [1000, 10000] × [10000, 256] at an entry -/

theorem lhs_d5_0 (i : S1000x256.Idx) (q : dot_S1000x10000_S10000x256_S1000x256_1_0_0_1_n_n.contr.Idx) :
    (dot_S1000x10000_S10000x256_S1000x256_1_0_0_1_n_n.lhsIdx i q 0).val = (i 0).val := by
  unfold DotDims.lhsIdx
  rw [dif_neg (show ¬(0 : Fin S1000x10000.rank) ∈ dot_S1000x10000_S10000x256_S1000x256_1_0_0_1_n_n.lhsBatch by decide),
    dif_pos (show (0 : Fin S1000x10000.rank) ∈ dot_S1000x10000_S10000x256_S1000x256_1_0_0_1_n_n.lhsNonContracting by decide)]
  rfl

theorem rhs_d5_1 (i : S1000x256.Idx) (q : dot_S1000x10000_S10000x256_S1000x256_1_0_0_1_n_n.contr.Idx) :
    (dot_S1000x10000_S10000x256_S1000x256_1_0_0_1_n_n.rhsIdx i q 1).val = (i 1).val := by
  unfold DotDims.rhsIdx
  rw [dif_neg (show ¬(1 : Fin S10000x256.rank) ∈ dot_S1000x10000_S10000x256_S1000x256_1_0_0_1_n_n.rhsBatch by decide),
    dif_pos (show (1 : Fin S10000x256.rank) ∈ dot_S1000x10000_S10000x256_S1000x256_1_0_0_1_n_n.rhsNonContracting by decide)]
  rfl

theorem matmul_d5_apply (l : FVec Ideal S1000x10000 .bf16) (w : FVec Ideal S10000x256 .bf16) (r : Fin 1000) (q : Fin 256) :
    matmul dot_S1000x10000_S10000x256_S1000x256_1_0_0_1_n_n none l w (constant (F := Ideal) S1000x256 .f32 0x00000000#32) (ix2 r q)
      = ∑ j : Fin 10000, l (ix2 r j) * w (ix2 j q) := by
  simp only [matmul]
  rw [Ideal.matmul_constant_zero_apply,
    ← Equiv.sum_comp (contrEquiv1 dot_S1000x10000_S10000x256_S1000x256_1_0_0_1_n_n 10000 rfl rfl).symm]
  refine Finset.sum_congr rfl fun k _ => ?_
  have hk := contrEquiv1_symm_val dot_S1000x10000_S10000x256_S1000x256_1_0_0_1_n_n 10000 rfl rfl k
  have el : dot_S1000x10000_S10000x256_S1000x256_1_0_0_1_n_n.lhsIdx (ix2 r q)
      ((contrEquiv1 dot_S1000x10000_S10000x256_S1000x256_1_0_0_1_n_n 10000 rfl rfl).symm k) = ix2 r k :=
    funext fun a => Fin.ext (by
      match a with
      | ⟨0, _⟩ => exact lhs_d5_0 _ _
      | ⟨1, _⟩ => exact (dot_S1000x10000_S10000x256_S1000x256_1_0_0_1_n_n.lhsIdx_val_of_single rfl _ _).trans hk)
  have er : dot_S1000x10000_S10000x256_S1000x256_1_0_0_1_n_n.rhsIdx (ix2 r q)
      ((contrEquiv1 dot_S1000x10000_S10000x256_S1000x256_1_0_0_1_n_n 10000 rfl rfl).symm k) = ix2 k q :=
    funext fun a => Fin.ext (by
      match a with
      | ⟨0, _⟩ => exact (dot_S1000x10000_S10000x256_S1000x256_1_0_0_1_n_n.rhsIdx_val_of_single rfl _ _).trans hk
      | ⟨1, _⟩ => exact rhs_d5_1 _ _)
  rw [el, er]

/-! ## The payload at an entry -/

/-- The aggregation of `y` by the thresholded similarities of a block of rows, divided by their floored row sum. -/
theorem pay1k_apply (x0 : FVec Ideal S1000x64 .bf16) (x1 : FVec Ideal S10000x64 .bf16) (x2 : FVec Ideal S10000x256 .bf16)
    (r : Fin 1000) (q : Fin 256) :
    k1_pay1 (F := Ideal) x0 x1 x2 (ix2 r q)
      = Ideal.div (∑ j : Fin 10000, daP x0 x1 r j * x2 (ix2 j q)) (max (∑ j : Fin 10000, daP x0 x1 r j) Cert.Spec.eps) := by
  unfold k1_pay1
  rw [divf_apply, matmul_d5_apply, broadcastTo_a1_ab_apply, maximumf_apply, shapeCast_a_a1_apply]
  refine congrArg₂ Ideal.div (Finset.sum_congr rfl fun j _ => ?_) (congrArg₂ max ?_ rfl)
  · rw [truncf_apply, shapeCast_same_apply, thresh_apply, sim_apply]
    rfl
  · refine (rowSum_apply _ _ _ _ r).trans (Finset.sum_congr rfl fun j _ => ?_)
    rw [thresh_apply, sim_apply]
    rfl

end Cert.KernelIdeal.Pay

end
-- ==== Proof.V1Final.lean ====
/-
  Region 1's result array is the specification's result: the aggregation payload computes the block formula, so the
  array the region leaves is the aggregate of the hn and y arrays it finds; where those are the specification's hn
  and y, that aggregate is the specification's kernel result.
-/
import proofs.«112259_g23313082482977_cont_8to1_1054_47_alg».proof.Proof.V1Array
import proofs.«112259_g23313082482977_cont_8to1_1054_47_alg».proof.Proof.KPay1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.Spec Cert.Agg

/-- The aggregation payload computes the block formula at every entry. -/
theorem payReads : PayReads := fun x0 x1 x2 r q =>
  (Cert.KernelIdeal.Pay.pay1k_apply x0 x1 x2 r q).trans (by
    unfold payAt Cert.KernelIdeal.Pay.daP Cert.KernelIdeal.Pay.simP; rfl)

variable (V : (c : Dev nD) → (b : Ref sig .tc) → Buf (Elt Ideal) ((c : Thread nD τ).loc b))

/-- The result array after region 1, when it finds the specification's hn and y: the specification's kernel result. -/
theorem final1_3 (c : Dev nD) (feat : Cert.Spec.Arr2 10000 256) (adj : Cert.Spec.Arr2 10000 10000)
    (W1 : Cert.Spec.Arr2 256 64) (W2 : Cert.Spec.Arr2 64 256)
    (h0 : V c main_v0_0 = Cert.Spec.HN feat adj W1) (h1 : V c main_v0_1 = Cert.Spec.Y feat adj W1 W2) :
    (dat1 (F := Ideal) V c).arrAt 3 cfg1.N = Cert.Spec.OutK feat adj W1 W2 := by
  rw [final1_3_agg V payReads c, h0, h1, OutK_eq]

end Cert.KernelIdeal.Hand

end
-- ==== Proof.RefValue.lean ====
/-
  The reference program, stage by stage, is the formula `Cert.Spec.OutR` of its four argument arrays.

  Each host operation's value at an index (the generated reading lemmas) is identified with the matching formula of the
  specification at explicit coordinates: the two matrix products and the rectifier give `h`, the sum of squares, the
  square root and the floor give `nrm`, the quotient gives `hn`, the product with the transpose gives `sim`, the
  comparison and the selection give the thresholded similarity, the absolute values, their row sum and the floor give
  the L1 norm, and the last two products give `y` and the result.
-/
import proofs.«112259_g23313082482977_cont_8to1_1054_47_alg».proof.Proof.Gen.ReferenceIdeal.Read
import proofs.«112259_g23313082482977_cont_8to1_1054_47_alg».proof.Proof.Spec

noncomputable section

namespace Cert.RefBridge

open Cert.ReferenceIdeal Cert.ReferenceIdeal.Read Idealize.ShloMosaic Idealize.ShloMosaic.ValueIdx

/-! ## The scalar facts -/

/-- A selection on a strict comparison of extended reals is an `if` on the strict order. -/
theorem select_olt (s t a b : EReal) :
    Scalar.select (Ideal.cmp .olt s t) a b = if s < t then a else b := by
  by_cases h : s < t
  · rw [if_pos h]
    have e : Ideal.cmp .olt s t = 1#1 := by simp only [Ideal.cmp, h, decide_true, BitVec.ofBool_true]; rfl
    rw [e]; exact select_one a b
  · rw [if_neg h]
    have e : Ideal.cmp .olt s t = 0#1 := by simp only [Ideal.cmp, h, decide_false, BitVec.ofBool_false]; rfl
    rw [e]; exact select_zero a b

section
variable (x0 : (⟨S10000x256, .f32⟩ : BufTy).Contents (Elt Ideal))
  (x1 : (⟨S10000x10000, .f32⟩ : BufTy).Contents (Elt Ideal))
  (x2 : (⟨S256x64, .f32⟩ : BufTy).Contents (Elt Ideal))
  (x3 : (⟨S64x256, .f32⟩ : BufTy).Contents (Elt Ideal))

/-! ## h1 = feat · W1 -/

theorem v0_eq (r : Fin 10000) (c : Fin 64) :
    val_main_v0 (F := Ideal) x0 x2 (ix2 r c) = Cert.Spec.h1 x0 x2 r c := by
  rw [val_main_v0_apply]
  unfold Cert.Spec.h1
  refine Finset.sum_congr rfl fun k _ => ?_
  have el : lidx_main_v0 (ix2 r c) k = ix2 r k :=
    funext fun a => Fin.ext (by match a with | ⟨0, _⟩ => rfl | ⟨1, _⟩ => rfl)
  have er : ridx_main_v0 (ix2 r c) k = ix2 k c :=
    funext fun a => Fin.ext (by match a with | ⟨0, _⟩ => rfl | ⟨1, _⟩ => rfl)
  rw [el, er]

/-! ## h = max (adj · h1) 0 -/

theorem v1_eq (r : Fin 10000) (c : Fin 64) :
    val_main_v1 (F := Ideal) x0 x1 x2 (ix2 r c) = ∑ k : Fin 10000, x1 (ix2 r k) * Cert.Spec.h1 x0 x2 k c := by
  rw [val_main_v1_apply]
  refine Finset.sum_congr rfl fun k _ => ?_
  have el : lidx_main_v1 (ix2 r c) k = ix2 r k :=
    funext fun a => Fin.ext (by match a with | ⟨0, _⟩ => rfl | ⟨1, _⟩ => rfl)
  have er : ridx_main_v1 (ix2 r c) k = ix2 k c :=
    funext fun a => Fin.ext (by match a with | ⟨0, _⟩ => rfl | ⟨1, _⟩ => rfl)
  rw [el, er, v0_eq]

theorem v2_eq (r : Fin 10000) (c : Fin 64) :
    val_main_v2 (F := Ideal) x0 x1 x2 (ix2 r c) = Cert.Spec.h x0 x1 x2 r c := by
  rw [val_main_v2_apply, val_main_call0_v0_apply, val_main_call0_cst_apply, v1_eq,
    Ideal.maximumf_def, Ideal.ofBits_def, Ideal.ofBits_zero_f32]
  rfl

/-! ## nrm r = max (√ Σ_c h r c ²) ε -/

theorem sq_eq (r : Fin 10000) (c : Fin 64) :
    val_main_call1_v0 (F := Ideal) x0 x1 x2 (ix2 r c) = Cert.Spec.h x0 x1 x2 r c * Cert.Spec.h x0 x1 x2 r c := by
  rw [val_main_call1_v0_apply, v2_eq, Ideal.mulf_def]

theorem sumsq_eq (r : Fin 10000) :
    val_main_call1_v1 (F := Ideal) x0 x1 x2 (ix1 r)
      = ∑ c : Fin 64, Cert.Spec.h x0 x1 x2 r c * Cert.Spec.h x0 x1 x2 r c := by
  rw [val_main_call1_v1_apply, val_main_call1_cst_apply, Ideal.ofBits_def, Ideal.ofBits_zero_f32, zero_add]
  refine Finset.sum_congr rfl fun k _ => ?_
  have e : idx_main_call1_v1 (ix1 r) k = ix2 r k :=
    funext fun a => Fin.ext (by match a with | ⟨0, _⟩ => rfl | ⟨1, _⟩ => rfl)
  rw [e, sq_eq]

theorem v5_eq (r : Fin 10000) (z : Fin 1) :
    val_main_v5 (F := Ideal) x0 x1 x2 (ix2 r z) = Cert.Spec.nrm x0 x1 x2 r := by
  have e : idx_main_call1_v2 (ix2 r z) = ix1 r :=
    funext fun a => Fin.ext (by match a with | ⟨0, _⟩ => rfl)
  rw [val_main_v5_apply, val_main_v3_apply, val_main_call1_v2_apply, e, sumsq_eq, val_main_v4_apply,
    val_main_cst_apply, Ideal.maximumf_def, Ideal.hostUnary_sqrt_def, Ideal.ofBits_def]
  rfl

/-! ## hn = h / nrm -/

theorem v7_eq (r : Fin 10000) (c : Fin 64) :
    val_main_v7 (F := Ideal) x0 x1 x2 (ix2 r c) = Cert.Spec.hn x0 x1 x2 r c := by
  have e : idx_main_v6 (ix2 r c) = ix2 r (⟨0, Nat.one_pos⟩ : Fin 1) :=
    funext fun a => Fin.ext (by match a with | ⟨0, _⟩ => rfl | ⟨1, _⟩ => rfl)
  rw [val_main_v7_apply, val_main_v6_apply, e, v5_eq, v2_eq, Ideal.hostDivf_def]
  rfl

/-! ## sim r j = Σ_k hn r k · hn j k -/

theorem v8_eq (k : Fin 64) (j : Fin 10000) :
    val_main_v8 (F := Ideal) x0 x1 x2 (ix2 k j) = Cert.Spec.hn x0 x1 x2 j k := by
  have e : idx_main_v8 (ix2 k j) = ix2 j k :=
    funext fun a => Fin.ext (by match a with | ⟨0, _⟩ => rfl | ⟨1, _⟩ => rfl)
  rw [val_main_v8_apply, e, v7_eq]

theorem v9_eq (r j : Fin 10000) :
    val_main_v9 (F := Ideal) x0 x1 x2 (ix2 r j) = Cert.Spec.sim x0 x1 x2 r j := by
  rw [val_main_v9_apply]
  unfold Cert.Spec.sim
  refine Finset.sum_congr rfl fun k _ => ?_
  have el : lidx_main_v9 (ix2 r j) k = ix2 r k :=
    funext fun a => Fin.ext (by match a with | ⟨0, _⟩ => rfl | ⟨1, _⟩ => rfl)
  have er : ridx_main_v9 (ix2 r j) k = ix2 k j :=
    funext fun a => Fin.ext (by match a with | ⟨0, _⟩ => rfl | ⟨1, _⟩ => rfl)
  rw [el, er, v7_eq, v8_eq]

/-! ## The thresholded similarity: 0 where sim < θ, else sim -/

theorem v13_eq (r j : Fin 10000) :
    val_main_v13 (F := Ideal) x0 x1 x2 (ix2 r j) = Cert.Spec.daR x0 x1 x2 r j := by
  rw [val_main_v13_apply, val_main_v11_apply, val_main_v12_apply, val_main_cst_1_apply, val_main_v10_apply,
    val_main_cst_0_apply, v9_eq, Ideal.cmpf_def, Ideal.ofBits_def, Ideal.ofBits_def, Ideal.ofBits_zero_f32, select_olt]
  rfl

/-! ## The floored L1 norm of a row of it -/

theorem v14_eq (r j : Fin 10000) :
    val_main_v14 (F := Ideal) x0 x1 x2 (ix2 r j)
      = max (Cert.Spec.daR x0 x1 x2 r j) (-(Cert.Spec.daR x0 x1 x2 r j)) := by
  rw [val_main_v14_apply, v13_eq, Ideal.hostAbsf_def, Ideal.absf_def]

theorem v15_eq (r : Fin 10000) :
    val_main_v15 (F := Ideal) x0 x1 x2 (ix1 r)
      = ∑ j : Fin 10000, max (Cert.Spec.daR x0 x1 x2 r j) (-(Cert.Spec.daR x0 x1 x2 r j)) := by
  rw [val_main_v15_apply, val_main_cst_2_apply, Ideal.ofBits_def, Ideal.ofBits_zero_f32, zero_add]
  refine Finset.sum_congr rfl fun k _ => ?_
  have e : idx_main_v15 (ix1 r) k = ix2 r k :=
    funext fun a => Fin.ext (by match a with | ⟨0, _⟩ => rfl | ⟨1, _⟩ => rfl)
  rw [e, v14_eq]

theorem v18_eq (r : Fin 10000) (z : Fin 1) :
    val_main_v18 (F := Ideal) x0 x1 x2 (ix2 r z) = Cert.Spec.l1R x0 x1 x2 r := by
  have e : idx_main_v16 (ix2 r z) = ix1 r :=
    funext fun a => Fin.ext (by match a with | ⟨0, _⟩ => rfl)
  rw [val_main_v18_apply, val_main_v16_apply, e, v15_eq, val_main_v17_apply, val_main_cst_3_apply,
    Ideal.maximumf_def, Ideal.ofBits_def]
  rfl

/-! ## The normalized thresholded similarity -/

theorem v20_eq (r j : Fin 10000) :
    val_main_v20 (F := Ideal) x0 x1 x2 (ix2 r j)
      = Ideal.div (Cert.Spec.daR x0 x1 x2 r j) (Cert.Spec.l1R x0 x1 x2 r) := by
  have e : idx_main_v19 (ix2 r j) = ix2 r (⟨0, Nat.one_pos⟩ : Fin 1) :=
    funext fun a => Fin.ext (by match a with | ⟨0, _⟩ => rfl | ⟨1, _⟩ => rfl)
  rw [val_main_v20_apply, val_main_v19_apply, e, v18_eq, v13_eq, Ideal.hostDivf_def]

/-! ## y = h · W2 and the result -/

theorem v21_eq (r : Fin 10000) (c : Fin 256) :
    val_main_v21 (F := Ideal) x0 x1 x2 x3 (ix2 r c) = Cert.Spec.y x0 x1 x2 x3 r c := by
  rw [val_main_v21_apply]
  unfold Cert.Spec.y
  refine Finset.sum_congr rfl fun k _ => ?_
  have el : lidx_main_v21 (ix2 r c) k = ix2 r k :=
    funext fun a => Fin.ext (by match a with | ⟨0, _⟩ => rfl | ⟨1, _⟩ => rfl)
  have er : ridx_main_v21 (ix2 r c) k = ix2 k c :=
    funext fun a => Fin.ext (by match a with | ⟨0, _⟩ => rfl | ⟨1, _⟩ => rfl)
  rw [el, er, v2_eq]

theorem v22_eq (r : Fin 10000) (c : Fin 256) :
    val_main_v22 (F := Ideal) x0 x1 x2 x3 (ix2 r c) = Cert.Spec.outR x0 x1 x2 x3 r c := by
  rw [val_main_v22_apply]
  unfold Cert.Spec.outR
  refine Finset.sum_congr rfl fun k _ => ?_
  have el : lidx_main_v22 (ix2 r c) k = ix2 r k :=
    funext fun a => Fin.ext (by match a with | ⟨0, _⟩ => rfl | ⟨1, _⟩ => rfl)
  have er : ridx_main_v22 (ix2 r c) k = ix2 k c :=
    funext fun a => Fin.ext (by match a with | ⟨0, _⟩ => rfl | ⟨1, _⟩ => rfl)
  rw [el, er, v20_eq, v21_eq]

/-- The reference program's result is the specification's `OutR` of the four argument arrays. -/
theorem ref_eq : val_main_v22 (F := Ideal) x0 x1 x2 x3 = Cert.Spec.OutR x0 x1 x2 x3 := by
  funext i
  obtain ⟨r, c, rfl⟩ : ∃ (r : Fin 10000) (c : Fin 256), i = ix2 r c := ⟨i 0, i 1, eq_ix2 i⟩
  rw [v22_eq]
  rfl

end

end Cert.RefBridge

end
-- ==== Proof.Finite.lean ====
/-
  The precondition, decoded: where the printed predicate `finite_inputs` of four arrays of extended reals is one,
  every entry of every array is a real number.

  The predicate is the conjunction of four `all (|x| < +∞)`. A conjunction that is one has both halves one; an
  `all` that is one has every element one; and `|x| < +∞` fails at both infinities, so `x` is a real.
-/
import proofs.«112259_g23313082482977_cont_8to1_1054_47_alg».proof.Defs
import Idealize.ShloMosaic.Lib.ReduceAll
import Idealize.ShloMosaic.Lib.Pipeline.Value
import Idealize.ShloMosaic.Lib.ValueIdx
import Idealize.ShloMosaic.PureOps.Ideal.Laws

noncomputable section

namespace Cert.Finite

open Cert.Pre_finite_inputs Idealize.ShloMosaic

/-- The scalar shape has one index. -/
instance : Subsingleton S_.Idx := ⟨fun a b => funext fun d => d.elim0⟩

/-- The word of `+∞`. -/
theorem ofBits_inf : Ideal.ofBits .f32 0x7F800000#32 = (⊤ : EReal) := by
  simp [Ideal.ofBits, Ideal.ieee]

/-- An extended real whose absolute value is strictly below `+∞` is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  rw [Ideal.cmpf_def, Ideal.hostAbsf_def, Ideal.absf_def, Ideal.ofBits_def, ofBits_inf] at h
  have hlt : max x (-x) < ⊤ := by
    by_contra hn
    simp only [Ideal.cmp, hn, decide_false, BitVec.ofBool_false] at h
    exact absurd h (by decide)
  induction x with
  | bot => exact absurd hlt (by simp)
  | coe r => exact ⟨r, rfl⟩
  | top => exact absurd hlt (by simp)

/-- One `all (|x| < +∞)` that is one: every entry of the array is a real. -/
theorem all_real {s : Shape} {axes : List (Fin s.rank)} (a : FVec Ideal s .f32) (hb : S_.BroadcastsInDim s (![] : Fin 0 → Fin s.rank))
    (hr : s.ReducesTo axes S_) (hu : 0 < S_.numel) (init : IVec S_ 1)
    (e : Host.reduce IntOp.andi (cmpf .olt (Host.absf a) (broadcastInDim s ![] hb (constant (F := Ideal) S_ .f32 0x7F800000#32)))
      init hr hu ValueIdx.ix0 = 1#1) (i : s.Idx) : ∃ r : ℝ, a i = (r : EReal) := by
  have hi := Host.reduce_andi_all _ init hr hu ValueIdx.ix0 e i
  refine real_of_abs_lt (a i) ?_
  rw [← hi, ValueIdx.cmpf_apply,
    broadcastInDim_apply _ hb (constant (F := Ideal) S_ .f32 0x7F800000#32) i ValueIdx.ix0 (fun a => a.elim0)]
  rfl

/-- Where `finite_inputs` of the four arrays is one, every entry of each of them is a real. -/
theorem of_pre [hPre : Cert.Pre_finite_inputs.Facts] (a0 : FVec Ideal S10000x256 .f32) (a1 : FVec Ideal S10000x10000 .f32)
    (a2 : FVec Ideal S256x64 .f32) (a3 : FVec Ideal S64x256 .f32)
    (h : Cert.Pre_finite_inputs.fn (F := Ideal) a0 a1 a2 a3 = (fun _ => 1#1)) :
    (∀ i, ∃ x : ℝ, a0 i = (x : EReal)) ∧ (∀ i, ∃ x : ℝ, a1 i = (x : EReal))
      ∧ (∀ i, ∃ x : ℝ, a2 i = (x : EReal)) ∧ (∀ i, ∃ x : ℝ, a3 i = (x : EReal)) := by
  have h0 := congrFun h ValueIdx.ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨all_real a0 _ _ _ _ e0, all_real a1 _ _ _ _ e1, all_real a2 _ _ _ _ e2, all_real a3 _ _ _ _ e3⟩

end Cert.Finite

end
-- ==== Proof.Algebra.lean ====
/-
  The algebraic law between the two formulas of Spec.lean, over the extended reals.

  With every input entry a real number, every stage of both formulas is a real number: finite sums,
  products and maxima of reals are real; the square root of a sum of squares of reals is real; both
  floored norms are at least ε > 0, so the quotients by them are real. On a linear order "θ ≤ s" is
  "not s < θ", so the two thresholded similarities are the same array; its entries are 0 or at least
  θ > 0, so each is its own absolute value and the two floored row sums agree, say to L > 0. What is
  left is  (Σ_j a_j · b_j) / L = Σ_j (a_j / L) · b_j  for reals a_j, b_j and L ≠ 0.
-/
import proofs.«112259_g23313082482977_cont_8to1_1054_47_alg».proof.Proof.Spec

noncomputable section

namespace Cert.Spec

open Idealize.ShloMosaic Idealize.ShloMosaic.ValueIdx

/-- An entry is a real number (neither infinity). -/
def IsReal (x : EReal) : Prop := ∃ a : ℝ, x = (a : EReal)

/-! ### The two literals are positive reals -/

/-- θ is the dyadic 10066330 · 2⁻²⁴ (0.6 rounded to f32). -/
theorem thr_eq : thr = ((10066330 * (2 : ℝ) ^ (-24 : Int) : ℝ) : EReal) := by
  simp [thr, Ideal.ofBits, Ideal.ieee]

/-- ε is the dyadic 9223372 · 2⁻⁶³ (1e-12 rounded to f32). -/
theorem eps_eq : eps = ((9223372 * (2 : ℝ) ^ (-63 : Int) : ℝ) : EReal) := by
  simp [eps, Ideal.ofBits, Ideal.ieee]

theorem thr_pos : (0 : EReal) < thr := by
  rw [thr_eq, EReal.coe_pos]; positivity

theorem eps_pos_real : ∃ e : ℝ, 0 < e ∧ eps = (e : EReal) :=
  ⟨_, by positivity, eps_eq⟩

/-! ### Real numbers inside the extended reals are closed under the operations used -/

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

theorem coe_sum {J : Type*} (s : Finset J) (f : J → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

namespace IsReal

theorem coe (a : ℝ) : IsReal (a : EReal) := ⟨a, rfl⟩

theorem zero : IsReal 0 := ⟨0, EReal.coe_zero.symm⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (max x y) := by
  obtain ⟨a, rfl⟩ := hx; obtain ⟨b, rfl⟩ := hy; exact ⟨_, (coe_max a b).symm⟩

theorem sum {J : Type*} (s : Finset J) (f : J → EReal) (h : ∀ j ∈ s, IsReal (f j)) :
    IsReal (∑ j ∈ s, f j) :=
  Finset.sum_induction f IsReal (fun _ _ => add) zero h

/-- A quotient by a nonzero real is real. -/
theorem div {x : EReal} (hx : IsReal x) {n : ℝ} (hn : n ≠ 0) : IsReal (Ideal.div x (n : EReal)) := by
  rw [Ideal.div_coe hn]; exact hx.mul (coe _)

end IsReal

/-- A finite sum of squares of reals is a nonnegative real. -/
theorem sum_mul_self_real {J : Type*} (s : Finset J) (f : J → EReal) (h : ∀ j ∈ s, IsReal (f j)) :
    ∃ q : ℝ, 0 ≤ q ∧ ∑ j ∈ s, f j * f j = (q : EReal) := by
  have hr : IsReal (∑ j ∈ s, f j * f j) := IsReal.sum s _ fun j hj => (h j hj).mul (h j hj)
  obtain ⟨q, hq⟩ := hr
  refine ⟨q, ?_, hq⟩
  rw [← EReal.coe_nonneg, ← hq]
  refine Finset.sum_nonneg fun j hj => ?_
  obtain ⟨a, ha⟩ := h j hj
  rw [ha, ← EReal.coe_mul, EReal.coe_nonneg]
  exact mul_self_nonneg a

/-- The floored square root of a nonnegative real is a positive real. -/
theorem max_sqrt_eps_real {q : ℝ} (hq : 0 ≤ q) :
    ∃ n : ℝ, 0 < n ∧ Max.max (Ideal.sqrt (q : EReal)) eps = (n : EReal) := by
  obtain ⟨e, he, hee⟩ := eps_pos_real
  refine ⟨Max.max (Real.sqrt q) e, lt_of_lt_of_le he (le_max_right _ _), ?_⟩
  rw [Ideal.sqrt_coe, if_neg (not_lt.mpr hq), hee, coe_max]

/-- The floor of a real by ε is a positive real. -/
theorem max_eps_real {x : EReal} (hx : IsReal x) :
    ∃ n : ℝ, 0 < n ∧ Max.max x eps = (n : EReal) := by
  obtain ⟨e, he, hee⟩ := eps_pos_real
  obtain ⟨a, rfl⟩ := hx
  exact ⟨Max.max a e, lt_of_lt_of_le he (le_max_right _ _), by rw [hee, coe_max]⟩

/-! ### Dividing a finite sum of products of reals by a nonzero real, term by term -/

theorem div_sum_mul {J : Type*} (s : Finset J) (a b : J → ℝ) {L : ℝ} (hL : L ≠ 0) :
    Ideal.div (∑ j ∈ s, (a j : EReal) * (b j : EReal)) (L : EReal)
      = ∑ j ∈ s, Ideal.div (a j : EReal) (L : EReal) * (b j : EReal) := by
  rw [Ideal.div_coe hL]
  have h1 : ∀ j ∈ s, Ideal.div (a j : EReal) (L : EReal) * (b j : EReal)
      = ((a j * (1 / L) * b j : ℝ) : EReal) := fun j _ => by
    rw [Ideal.div_coe hL, EReal.coe_mul, EReal.coe_mul]
  have h2 : ∀ j ∈ s, (a j : EReal) * (b j : EReal) = ((a j * b j : ℝ) : EReal) := fun j _ =>
    (EReal.coe_mul _ _).symm
  rw [Finset.sum_congr rfl h1, Finset.sum_congr rfl h2, ← coe_sum, ← coe_sum, ← EReal.coe_mul,
    Finset.sum_mul]
  congr 1
  exact Finset.sum_congr rfl fun j _ => by ring

/-! ### Every stage is real -/

section
variable (feat : Arr2 10000 256) (adj : Arr2 10000 10000) (W1 : Arr2 256 64) (W2 : Arr2 64 256)
variable (hfeat : ∀ i, IsReal (feat i)) (hadj : ∀ i, IsReal (adj i))
variable (hW1 : ∀ i, IsReal (W1 i)) (hW2 : ∀ i, IsReal (W2 i))
include hfeat hW1

theorem h1_real (r : Fin 10000) (c : Fin 64) : IsReal (h1 feat W1 r c) :=
  IsReal.sum _ _ fun _ _ => (hfeat _).mul (hW1 _)

include hadj

theorem h_real (r : Fin 10000) (c : Fin 64) : IsReal (h feat adj W1 r c) :=
  (IsReal.sum _ _ fun k _ => (hadj _).mul (h1_real feat W1 hfeat hW1 k c)).max IsReal.zero

/-- The floored row norm is a positive real. -/
theorem nrm_real (r : Fin 10000) : ∃ n : ℝ, 0 < n ∧ nrm feat adj W1 r = (n : EReal) := by
  obtain ⟨q, hq, hs⟩ := sum_mul_self_real Finset.univ (fun c => h feat adj W1 r c)
    fun c _ => h_real feat adj W1 hfeat hadj hW1 r c
  obtain ⟨n, hn, hm⟩ := max_sqrt_eps_real hq
  exact ⟨n, hn, by rw [← hm, ← hs]; rfl⟩

theorem hn_real (r : Fin 10000) (c : Fin 64) : IsReal (hn feat adj W1 r c) := by
  obtain ⟨n, hpos, he⟩ := nrm_real feat adj W1 hfeat hadj hW1 r
  unfold hn
  rw [he]
  exact (h_real feat adj W1 hfeat hadj hW1 r c).div hpos.ne'

theorem sim_real (r j : Fin 10000) : IsReal (sim feat adj W1 r j) :=
  IsReal.sum _ _ fun k _ =>
    (hn_real feat adj W1 hfeat hadj hW1 r k).mul (hn_real feat adj W1 hfeat hadj hW1 j k)

theorem daK_real (r j : Fin 10000) : IsReal (daK feat adj W1 r j) := by
  unfold daK
  split
  · exact sim_real feat adj W1 hfeat hadj hW1 r j
  · exact IsReal.zero

/-- The floored row sum is a positive real. -/
theorem l1K_real (r : Fin 10000) : ∃ L : ℝ, 0 < L ∧ l1K feat adj W1 r = (L : EReal) :=
  max_eps_real (IsReal.sum _ _ fun j _ => daK_real feat adj W1 hfeat hadj hW1 r j)

include hW2

theorem y_real (r : Fin 10000) (c : Fin 256) : IsReal (y feat adj W1 W2 r c) :=
  IsReal.sum _ _ fun k _ => (h_real feat adj W1 hfeat hadj hW1 r k).mul (hW2 _)

end

/-! ### The two thresholded similarities and the two floored row sums agree -/

section
variable (feat : Arr2 10000 256) (adj : Arr2 10000 10000) (W1 : Arr2 256 64) (W2 : Arr2 64 256)

/-- On a linear order, "0 where s < θ, else s" is "s where θ ≤ s, else 0". -/
theorem daR_eq_daK (r j : Fin 10000) : daR feat adj W1 r j = daK feat adj W1 r j := by
  unfold daR daK
  by_cases hs : thr ≤ sim feat adj W1 r j
  · rw [if_pos hs, if_neg (not_lt.mpr hs)]
  · rw [if_neg hs, if_pos (not_le.mp hs)]

/-- A thresholded similarity is 0 or at least θ > 0. -/
theorem daK_nonneg (r j : Fin 10000) : 0 ≤ daK feat adj W1 r j := by
  unfold daK
  split
  · next hs => exact le_trans thr_pos.le hs
  · exact le_rfl

theorem l1R_eq_l1K (r : Fin 10000) : l1R feat adj W1 r = l1K feat adj W1 r := by
  unfold l1R l1K
  congr 1
  refine Finset.sum_congr rfl fun j _ => ?_
  rw [daR_eq_daK]
  have h0 := daK_nonneg feat adj W1 r j
  exact max_eq_left (le_trans (EReal.neg_le_zero.mpr h0) h0)

end

/-! ### The law -/

theorem outR_eq_outK (feat : Arr2 10000 256) (adj : Arr2 10000 10000) (W1 : Arr2 256 64) (W2 : Arr2 64 256)
    (hfeat : ∀ i, IsReal (feat i)) (hadj : ∀ i, IsReal (adj i)) (hW1 : ∀ i, IsReal (W1 i)) (hW2 : ∀ i, IsReal (W2 i))
    (r : Fin 10000) (c : Fin 256) : outR feat adj W1 W2 r c = outK feat adj W1 W2 r c := by
  obtain ⟨L, hL, hLe⟩ := l1K_real feat adj W1 hfeat hadj hW1 r
  choose a ha using fun j => daK_real feat adj W1 hfeat hadj hW1 r j
  choose b hb using fun j => y_real feat adj W1 W2 hfeat hadj hW1 hW2 j c
  unfold outR outK
  rw [l1R_eq_l1K, hLe]
  have hK : ∀ j ∈ (Finset.univ : Finset (Fin 10000)),
      daK feat adj W1 r j * y feat adj W1 W2 j c = (a j : EReal) * (b j : EReal) := fun j _ => by
    rw [ha j, hb j]
  have hR : ∀ j ∈ (Finset.univ : Finset (Fin 10000)),
      Ideal.div (daR feat adj W1 r j) (L : EReal) * y feat adj W1 W2 j c
        = Ideal.div (a j : EReal) (L : EReal) * (b j : EReal) := fun j _ => by
    rw [daR_eq_daK, ha j, hb j]
  rw [Finset.sum_congr rfl hK, Finset.sum_congr rfl hR]
  exact (div_sum_mul Finset.univ a b hL.ne').symm

theorem OutR_eq_OutK (feat : Arr2 10000 256) (adj : Arr2 10000 10000) (W1 : Arr2 256 64) (W2 : Arr2 64 256)
    (hfeat : ∀ i, IsReal (feat i)) (hadj : ∀ i, IsReal (adj i)) (hW1 : ∀ i, IsReal (W1 i)) (hW2 : ∀ i, IsReal (W2 i)) :
    OutR feat adj W1 W2 = OutK feat adj W1 W2 :=
  funext fun i => outR_eq_outK feat adj W1 W2 hfeat hadj hW1 hW2 (i 0) (i 1)

end Cert.Spec

end
-- ==== Proof.lean ====
/-
  The kernel computes, in two pipelined stages, out = da · y / l1 with hn = h / ‖h‖ row-normalized,
  h = relu (adj · (feat · W1)), y = h · W2, da the cosine similarities hn · hnᵀ kept where they reach 0.6, and l1
  the floored row sums of da; the reference computes out' = (da' / l1') · y with da' the same matrix thresholded
  from below and l1' the floored row sums of |da'|. Over the extended reals the two thresholds select the same
  entries, every kept entry is positive so |da'| = da', and for finite inputs every stage is a real number and the
  positive real l1 moves through the finite sum: both are one function of the four argument arrays.
  The frames: the program is two kernel regions in order, each run point by point (the first keeps h1 = feat · W1
  in a scratch buffer from its first grid point on; the second reads hn through two windows); the reference is
  host operations only.
-/
import proofs.«112259_g23313082482977_cont_8to1_1054_47_alg».proof.Defs
import proofs.«112259_g23313082482977_cont_8to1_1054_47_alg».proof.Proof.Gen.Kernel
import proofs.«112259_g23313082482977_cont_8to1_1054_47_alg».proof.Proof.Gen.KernelIdeal
import proofs.«112259_g23313082482977_cont_8to1_1054_47_alg».proof.Proof.Gen.ReferenceIdeal
import proofs.«112259_g23313082482977_cont_8to1_1054_47_alg».proof.Proof.Gen.Pre_finite_inputs
import proofs.«112259_g23313082482977_cont_8to1_1054_47_alg».proof.Proof.Run
import proofs.«112259_g23313082482977_cont_8to1_1054_47_alg».proof.Proof.KRun
import proofs.«112259_g23313082482977_cont_8to1_1054_47_alg».proof.Proof.V0Final
import proofs.«112259_g23313082482977_cont_8to1_1054_47_alg».proof.Proof.V1Final
import proofs.«112259_g23313082482977_cont_8to1_1054_47_alg».proof.Proof.RefValue
import proofs.«112259_g23313082482977_cont_8to1_1054_47_alg».proof.Proof.Finite
import proofs.«112259_g23313082482977_cont_8to1_1054_47_alg».proof.Proof.Algebra
import Idealize.ShloMosaic.Adequacy
import Idealize.ShloMosaic.Init

noncomputable section

namespace Cert.Proof

open Idealize.ShloMosaic Idealize.ShloMosaic.TcCoe Idealize.SL.Sem

/-! ## The kernel's result array as one function of the arguments -/

open Cert.KernelIdeal Cert.KernelIdeal.Gen Cert.KernelIdeal.Hand in
/-- After both regions the result array holds the specification's kernel-side function of the four argument
    arrays: region 0 leaves hn and y (each block the rows' values), region 1 aggregates them. -/
theorem kernel_value (m : (ℓ : Loc Cert.KernelIdeal.nD Cert.KernelIdeal.τ Cert.KernelIdeal.sig) → Buf (Elt Ideal) ℓ) (c : Dev Cert.KernelIdeal.nD) :
    (dat1 (F := Ideal) (VV1 m) c).arrAt 3 cfg1.N
      = Cert.Spec.OutK (m ((c.tc : Thread Cert.KernelIdeal.nD Cert.KernelIdeal.τ).loc main_arg0)) (m ((c.tc : Thread Cert.KernelIdeal.nD Cert.KernelIdeal.τ).loc main_arg1))
          (m ((c.tc : Thread Cert.KernelIdeal.nD Cert.KernelIdeal.τ).loc main_arg2)) (m ((c.tc : Thread Cert.KernelIdeal.nD Cert.KernelIdeal.τ).loc main_arg3)) :=
  final1_3 (VV1 m) c _ _ _ _ ((W1_arr m c 4).trans (final0_4 (VV0 m) c)) ((W1_arr m c 5).trans (final0_5 (VV0 m) c))

/-! ## The claims -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at one function of the arguments: the kernel's by its two regions'
    values, the reference's by its host operations read at an entry, joined by the law above for finite inputs. -/
theorem algebraic : Cert.algebraic_KernelIdeal_ReferenceIdeal := by
  intro m ρ m' ρ' hpre hagree
  refine ⟨fun c => Cert.Spec.OutK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_value m c), (h c).2⟩)
      (Cert.KernelIdeal.Hand.run_main (F := Ideal) m ρ)
  · refine (θ_run Cert.ReferenceIdeal.defs _ _).mono (fun r h c => ⟨?_, (h c).2⟩)
      (Cert.ReferenceIdeal.Value.run (F := Ideal) m' ρ')
    obtain ⟨h0, h1, h2, h3⟩ := Cert.Finite.of_pre _ _ _ _ (hpre c)
    rw [(h c).1, Cert.ReferenceIdeal.Read.val_main_v22_eq, Cert.RefBridge.ref_eq, (hagree c).1, (hagree c).2.1,
      (hagree c).2.2.1, (hagree c).2.2.2]
    exact Cert.Spec.OutR_eq_OutK _ _ _ _ h0 h1 h2 h3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
